-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x8 : Shape := ⟨3, ![1, 32, 8]⟩
abbrev S1x1024x1024x2 : Shape := ⟨4, ![1, 1024, 1024, 2]⟩
abbrev S_ : Shape := ⟨0, ![]⟩

class Facts : Prop where
  bcast_S_S1x32x8 : S_.BroadcastsInDim S1x32x8 (![] : Fin 0 → Fin S1x32x8.rank)
  reducesTo_S1x32x8_S_d0_1_2 : S1x32x8.ReducesTo [0, 1, 2] S_
  h_S_ : 0 < S_.numel
  bcast_S_S1x1024x1024x2 : S_.BroadcastsInDim S1x1024x1024x2 (![] : Fin 0 → Fin S1x1024x1024x2.rank)
  reducesTo_S1x1024x1024x2_S_d0_1_2_3 : S1x1024x1024x2.ReducesTo [0, 1, 2, 3] S_

variable [Facts]

def fn {F : FTy → Type} [FloatOps F] (main_arg0 : FVec F S1x32x8 .f32) (main_arg1 : FVec F S1x1024x1024x2 .f32) : IVec S_ 1 :=
  let main_v0 : FVec F S1x32x8 .f32 := Host.absf main_arg0
  let main_cst : FVec F S_ .f32 := constant S_ .f32 0x7F800000#32
  let main_v1 : FVec F S1x32x8 .f32 := broadcastInDim S1x32x8 ![] bcast_S_S1x32x8 main_cst
  let main_v2 : IVec S1x32x8 1 := cmpf .olt main_v0 main_v1
  let main_c : IVec S_ 1 := constantI S_ 1 1#1
  let main_v3 : IVec S_ 1 := (fun x v => Host.reduce IntOp.andi x v reducesTo_S1x32x8_S_d0_1_2 h_S_) main_v2 main_c
  let main_v4 : FVec F S1x1024x1024x2 .f32 := Host.absf main_arg1
  let main_cst_0 : FVec F S_ .f32 := constant S_ .f32 0x7F800000#32
  let main_v5 : FVec F S1x1024x1024x2 .f32 := broadcastInDim S1x1024x1024x2 ![] bcast_S_S1x1024x1024x2 main_cst_0
  let main_v6 : IVec S1x1024x1024x2 1 := cmpf .olt main_v4 main_v5
  let main_c_1 : IVec S_ 1 := constantI S_ 1 1#1
  let main_v7 : IVec S_ 1 := (fun x v => Host.reduce IntOp.andi x v reducesTo_S1x1024x1024x2_S_d0_1_2_3 h_S_) main_v6 main_c_1
  let main_v8 : IVec S_ 1 := andi main_v3 main_v7
  main_v8
-- ==== Kernel.lean ====
abbrev S1x32x8 : Shape := ⟨3, ![1, 32, 8]⟩
abbrev S1x1024x1024x2 : Shape := ⟨4, ![1, 1024, 1024, 2]⟩
abbrev S1x2x1024x1024 : Shape := ⟨4, ![1, 2, 1024, 1024]⟩
abbrev S32x2x1024x1024 : Shape := ⟨4, ![32, 2, 1024, 1024]⟩
abbrev S1x2x128x128 : Shape := ⟨4, ![1, 2, 128, 128]⟩
abbrev S32x2x128x128 : Shape := ⟨4, ![32, 2, 128, 128]⟩
abbrev S32x8 : Shape := ⟨2, ![32, 8]⟩
abbrev S32x1 : Shape := ⟨2, ![32, 1]⟩
abbrev S32 : Shape := ⟨1, ![32]⟩
abbrev S32x1x1 : Shape := ⟨3, ![32, 1, 1]⟩
abbrev S2x128x128 : Shape := ⟨3, ![2, 128, 128]⟩
abbrev S1x128x128 : Shape := ⟨3, ![1, 128, 128]⟩
abbrev S128x128 : Shape := ⟨2, ![128, 128]⟩
abbrev S32x128x128 : Shape := ⟨3, ![32, 128, 128]⟩
abbrev S32x1x128x128 : Shape := ⟨4, ![32, 1, 128, 128]⟩
abbrev S32x1024x1024x2 : Shape := ⟨4, ![32, 1024, 1024, 2]⟩

abbrev nBuf : Space → Nat
  | .hbm => 5
  | .vmem => 5
  | .smem => 0
  | _ => 0

abbrev bufTy : (tb : Table) → Fin (tcTables nBuf tb) → BufTy
  | .hbm, ⟨0, _⟩ => ⟨S1x32x8, .f32⟩
  | .hbm, ⟨1, _⟩ => ⟨S1x1024x1024x2, .f32⟩
  | .hbm, ⟨2, _⟩ => ⟨S1x2x1024x1024, .f32⟩
  | .hbm, ⟨3, _⟩ => ⟨S32x2x1024x1024, .f32⟩
  | .hbm, ⟨4, _⟩ => ⟨S32x1024x1024x2, .f32⟩
  | .local _ .vmem, ⟨0, _⟩ => ⟨S1x2x128x128, .f32⟩
  | .local _ .vmem, ⟨1, _⟩ => ⟨S1x2x128x128, .f32⟩
  | .local _ .vmem, ⟨2, _⟩ => ⟨S1x32x8, .f32⟩
  | .local _ .vmem, ⟨3, _⟩ => ⟨S32x2x128x128, .f32⟩
  | .local _ .vmem, ⟨4, _⟩ => ⟨S32x2x128x128, .f32⟩
  | _, _ => ⟨S1x32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

abbrev stage0_0 : Fin 2 → Memref sig .tc .vmem S1x2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S32x2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S1x1024x1024x2_S1x2x1024x1024_0_3_1_2 : S1x1024x1024x2.Transposes [0, 3, 1, 2] S1x2x1024x1024
  inb_S1x32x8_S1x32x8_0_0_0 : ∀ a, (![0, 0, 0] : Fin 3 → Nat) a + S1x32x8.size a ≤ S1x32x8.size a
  h_S1x32x8 : 0 < S1x32x8.numel
  shapeCasts_S1x32x8_S32x8 : S1x32x8.ShapeCasts S32x8
  slices_S32x8_o0_0_S32x1 : S32x8.Slices ![0, 0] S32x1
  shapeCasts_S32x1_S32 : S32x1.ShapeCasts S32
  shapeCasts_S32_S32x1x1 : S32.ShapeCasts S32x1x1
  slices_S32x8_o0_1_S32x1 : S32x8.Slices ![0, 1] S32x1
  slices_S32x8_o0_2_S32x1 : S32x8.Slices ![0, 2] S32x1
  slices_S32x8_o0_3_S32x1 : S32x8.Slices ![0, 3] S32x1
  slices_S32x8_o0_6_S32x1 : S32x8.Slices ![0, 6] S32x1
  slices_S32x8_o0_7_S32x1 : S32x8.Slices ![0, 7] S32x1
  inb_S1x2x128x128_S1x2x128x128_0_0_0_0 : ∀ a, (![0, 0, 0, 0] : Fin 4 → Nat) a + S1x2x128x128.size a ≤ S1x2x128x128.size a
  h_S1x2x128x128 : 0 < S1x2x128x128.numel
  shapeCasts_S1x2x128x128_S2x128x128 : S1x2x128x128.ShapeCasts S2x128x128
  slices_S2x128x128_o0_0_0_S1x128x128 : S2x128x128.Slices ![0, 0, 0] S1x128x128
  shapeCasts_S1x128x128_S128x128 : S1x128x128.ShapeCasts S128x128
  shapeCasts_S128x128_S1x128x128 : S128x128.ShapeCasts S1x128x128
  slices_S2x128x128_o1_0_0_S1x128x128 : S2x128x128.Slices ![1, 0, 0] S1x128x128
  broadcasts_S1x128x128_S32x128x128 : S1x128x128.Broadcasts S32x128x128
  broadcasts_S32x1x1_S32x128x128 : S32x1x1.Broadcasts S32x128x128
  natLt_1_32 : 1 < 32
  shapeCasts_S32x128x128_S32x1x128x128 : S32x128x128.ShapeCasts S32x1x128x128
  concatenates_S32x1x128x128_S32x1x128x128_S32x2x128x128_d1 : Shape.Concatenates [S32x1x128x128, S32x1x128x128] S32x2x128x128 1
  inb_S32x2x128x128_S32x2x128x128_0_0_0_0 : ∀ a, (![0, 0, 0, 0] : Fin 4 → Nat) a + S32x2x128x128.size a ≤ S32x2x128x128.size a
  h_S32x2x128x128 : 0 < S32x2x128x128.numel
  transposes_S32x2x1024x1024_S32x1024x1024x2_0_2_3_1 : S32x2x1024x1024.Transposes [0, 2, 3, 1] S32x1024x1024x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x128x128.size a ≤ S1x2x1024x1024.size a
  hwx0_0 : ∀ i : grid0.Coords, EltTy.bits .f32 = 32 ∨ (Rect.block (s := S1x2x1024x1024) S1x2x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32x8.size a ≤ S1x32x8.size a
  hwx0_1 : ∀ i : grid0.Coords, EltTy.bits .f32 = 32 ∨ (Rect.block (s := S1x32x8) S1x32x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2x128x128.size a ≤ S32x2x1024x1024.size a
  hwx0_2 : ∀ i : grid0.Coords, EltTy.bits .f32 = 32 ∨ (Rect.block (s := S32x2x1024x1024) S32x2x128x128.size (cc0_transform_2 i) (hinb0_2 i)).WholeWords (EltTy.packing .f32)

variable [Facts₀]

abbrev win0_0 : Pipeline.Window sig grid0 :=
  Pipeline.Window.ofSpec (Memref.whole main_v0) S1x2x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x32x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x2x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x32x8 : Shape := ⟨3, ![1, 32, 8]⟩
abbrev S1x1024x1024x2 : Shape := ⟨4, ![1, 1024, 1024, 2]⟩
abbrev S1x32x1 : Shape := ⟨3, ![1, 32, 1]⟩
abbrev S1x32 : Shape := ⟨2, ![1, 32]⟩
abbrev S1x32x2 : Shape := ⟨3, ![1, 32, 2]⟩
abbrev S32x1x2 : Shape := ⟨3, ![32, 1, 2]⟩
abbrev S32x1 : Shape := ⟨2, ![32, 1]⟩
abbrev S32x1x1 : Shape := ⟨3, ![32, 1, 1]⟩
abbrev S1x1024x1024x1x2 : Shape := ⟨5, ![1, 1024, 1024, 1, 2]⟩
abbrev S32x1x1x1x2 : Shape := ⟨5, ![32, 1, 1, 1, 2]⟩
abbrev S32x1x1x1x1 : Shape := ⟨5, ![32, 1, 1, 1, 1]⟩
abbrev S32x1024x1024x1x2 : Shape := ⟨5, ![32, 1024, 1024, 1, 2]⟩
abbrev S_ : Shape := ⟨0, ![]⟩
abbrev S32x1024x1024x1 : Shape := ⟨4, ![32, 1024, 1024, 1]⟩
abbrev S32x1024x1024x1x1 : Shape := ⟨5, ![32, 1024, 1024, 1, 1]⟩
abbrev S32x1024x1024x2 : Shape := ⟨4, ![32, 1024, 1024, 2]⟩

abbrev nBuf : Space → Nat
  | .hbm => 80
  | .vmem => 0
  | .smem => 0
  | _ => 0

abbrev bufTy : (tb : Table) → Fin (tcTables nBuf tb) → BufTy
  | .hbm, ⟨0, _⟩ => ⟨S1x32x8, .f32⟩
  | .hbm, ⟨1, _⟩ => ⟨S1x1024x1024x2, .f32⟩
  | .hbm, ⟨2, _⟩ => ⟨S1x32x1, .f32⟩
  | .hbm, ⟨3, _⟩ => ⟨S1x32, .f32⟩
  | .hbm, ⟨4, _⟩ => ⟨S1x32x1, .f32⟩
  | .hbm, ⟨5, _⟩ => ⟨S1x32, .f32⟩
  | .hbm, ⟨6, _⟩ => ⟨S1x32x1, .f32⟩
  | .hbm, ⟨7, _⟩ => ⟨S1x32, .f32⟩
  | .hbm, ⟨8, _⟩ => ⟨S1x32x1, .f32⟩
  | .hbm, ⟨9, _⟩ => ⟨S1x32, .f32⟩
  | .hbm, ⟨10, _⟩ => ⟨S1x32x1, .f32⟩
  | .hbm, ⟨11, _⟩ => ⟨S1x32, .f32⟩
  | .hbm, ⟨12, _⟩ => ⟨S1x32x1, .f32⟩
  | .hbm, ⟨13, _⟩ => ⟨S1x32, .f32⟩
  | .hbm, ⟨14, _⟩ => ⟨S1x32x1, .f32⟩
  | .hbm, ⟨15, _⟩ => ⟨S1x32, .f32⟩
  | .hbm, ⟨16, _⟩ => ⟨S1x32x1, .f32⟩
  | .hbm, ⟨17, _⟩ => ⟨S1x32, .f32⟩
  | .hbm, ⟨18, _⟩ => ⟨S1x32, .f32⟩
  | .hbm, ⟨19, _⟩ => ⟨S1x32x1, .f32⟩
  | .hbm, ⟨20, _⟩ => ⟨S1x32x1, .f32⟩
  | .hbm, ⟨21, _⟩ => ⟨S1x32x2, .f32⟩
  | .hbm, ⟨22, _⟩ => ⟨S32x1x2, .f32⟩
  | .hbm, ⟨23, _⟩ => ⟨S32x1, .f32⟩
  | .hbm, ⟨24, _⟩ => ⟨S32x1x1, .f32⟩
  | .hbm, ⟨25, _⟩ => ⟨S32x1x1, .f32⟩
  | .hbm, ⟨26, _⟩ => ⟨S32x1x1, .f32⟩
  | .hbm, ⟨27, _⟩ => ⟨S1x1024x1024x1x2, .f32⟩
  | .hbm, ⟨28, _⟩ => ⟨S32x1x1x1x2, .f32⟩
  | .hbm, ⟨29, _⟩ => ⟨S32x1x1x1x1, .f32⟩
  | .hbm, ⟨30, _⟩ => ⟨S32x1x1x1x1, .f32⟩
  | .hbm, ⟨31, _⟩ => ⟨S32x1x1, .f32⟩
  | .hbm, ⟨32, _⟩ => ⟨S32x1x1x1x1, .f32⟩
  | .hbm, ⟨33, _⟩ => ⟨S32x1x1x1x1, .f32⟩
  | .hbm, ⟨34, _⟩ => ⟨S32x1024x1024x1x2, .f32⟩
  | .hbm, ⟨35, _⟩ => ⟨S32x1024x1024x1x2, .f32⟩
  | .hbm, ⟨36, _⟩ => ⟨S32x1024x1024x1x2, .f32⟩
  | .hbm, ⟨37, _⟩ => ⟨S32x1024x1024x1x2, .f32⟩
  | .hbm, ⟨38, _⟩ => ⟨S_, .f32⟩
  | .hbm, ⟨39, _⟩ => ⟨S32x1024x1024x1, .f32⟩
  | .hbm, ⟨40, _⟩ => ⟨S32x1024x1024x1x1, .f32⟩
  | .hbm, ⟨41, _⟩ => ⟨S32x1024x1024x1x1, .f32⟩
  | .hbm, ⟨42, _⟩ => ⟨S32x1024x1024x1x1, .f32⟩
  | .hbm, ⟨43, _⟩ => ⟨S32x1024x1024x1x1, .f32⟩
  | .hbm, ⟨44, _⟩ => ⟨S_, .f32⟩
  | .hbm, ⟨45, _⟩ => ⟨S32x1024x1024x1x1, .f32⟩
  | .hbm, ⟨46, _⟩ => ⟨S32x1024x1024x1x1, .i1⟩
  | .hbm, ⟨47, _⟩ => ⟨S32x1024x1024x1x1, .f32⟩
  | .hbm, ⟨48, _⟩ => ⟨S32x1024x1024x1x1, .f32⟩
  | .hbm, ⟨49, _⟩ => ⟨S32x1024x1024x1x1, .f32⟩
  | .hbm, ⟨50, _⟩ => ⟨S32x1x1x1x1, .f32⟩
  | .hbm, ⟨51, _⟩ => ⟨S32x1024x1024x1x1, .f32⟩
  | .hbm, ⟨52, _⟩ => ⟨S32x1024x1024x1x1, .f32⟩
  | .hbm, ⟨53, _⟩ => ⟨S32x1024x1024x1x1, .f32⟩
  | .hbm, ⟨54, _⟩ => ⟨S32x1024x1024x1x1, .f32⟩
  | .hbm, ⟨55, _⟩ => ⟨S32x1024x1024x1x1, .f32⟩
  | .hbm, ⟨56, _⟩ => ⟨S32x1x1x1x1, .f32⟩
  | .hbm, ⟨57, _⟩ => ⟨S32x1024x1024x1x1, .f32⟩
  | .hbm, ⟨58, _⟩ => ⟨S32x1024x1024x1x1, .f32⟩
  | .hbm, ⟨59, _⟩ => ⟨S32x1024x1024x1x1, .f32⟩
  | .hbm, ⟨60, _⟩ => ⟨S_, .f32⟩
  | .hbm, ⟨61, _⟩ => ⟨S32x1024x1024x1x1, .f32⟩
  | .hbm, ⟨62, _⟩ => ⟨S32x1024x1024x1x1, .f32⟩
  | .hbm, ⟨63, _⟩ => ⟨S32x1024x1024x1x1, .f32⟩
  | .hbm, ⟨64, _⟩ => ⟨S32x1024x1024x1x1, .f32⟩
  | .hbm, ⟨65, _⟩ => ⟨S32x1024x1024x1x1, .f32⟩
  | .hbm, ⟨66, _⟩ => ⟨S32x1024x1024x1x1, .f32⟩
  | .hbm, ⟨67, _⟩ => ⟨S32x1024x1024x1x1, .f32⟩
  | .hbm, ⟨68, _⟩ => ⟨S32x1024x1024x1x1, .f32⟩
  | .hbm, ⟨69, _⟩ => ⟨S32x1024x1024x1, .f32⟩
  | .hbm, ⟨70, _⟩ => ⟨S32x1024x1024x1x1, .f32⟩
  | .hbm, ⟨71, _⟩ => ⟨S32x1024x1024x1, .f32⟩
  | .hbm, ⟨72, _⟩ => ⟨S32x1024x1024x1, .f32⟩
  | .hbm, ⟨73, _⟩ => ⟨S32x1024x1024x1x1, .f32⟩
  | .hbm, ⟨74, _⟩ => ⟨S32x1024x1024x1x1, .f32⟩
  | .hbm, ⟨75, _⟩ => ⟨S32x1024x1024x1x2, .f32⟩
  | .hbm, ⟨76, _⟩ => ⟨S32x1024x1024x1x2, .f32⟩
  | .hbm, ⟨77, _⟩ => ⟨S32x1024x1024x1x2, .f32⟩
  | .hbm, ⟨78, _⟩ => ⟨S_, .f32⟩
  | .hbm, ⟨79, _⟩ => ⟨S32x1024x1024x2, .f32⟩
  | _, _ => ⟨S1x32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_cst : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_0 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_cst_1 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_cst_2 : Ref sig .tc := ⟨.hbm, 78, rfl⟩
abbrev main_v73 : Ref sig .tc := ⟨.hbm, 79, rfl⟩

abbrev nD : Nat := 1
abbrev τ : Topo := Topo.v7x

variable {F : FTy → Type} [FloatOps F]

class Facts₀ : Prop where
  slices_S1x32x8_S1x32x1_0_0_0 : S1x32x8.Slices ![0, 0, 0] S1x32x1
  shapeCasts_S1x32x1_S1x32 : S1x32x1.ShapeCasts S1x32
  slices_S1x32x8_S1x32x1_0_0_1 : S1x32x8.Slices ![0, 0, 1] S1x32x1
  slices_S1x32x8_S1x32x1_0_0_2 : S1x32x8.Slices ![0, 0, 2] S1x32x1
  slices_S1x32x8_S1x32x1_0_0_3 : S1x32x8.Slices ![0, 0, 3] S1x32x1
  slices_S1x32x8_S1x32x1_0_0_4 : S1x32x8.Slices ![0, 0, 4] S1x32x1
  slices_S1x32x8_S1x32x1_0_0_5 : S1x32x8.Slices ![0, 0, 5] S1x32x1
  slices_S1x32x8_S1x32x1_0_0_6 : S1x32x8.Slices ![0, 0, 6] S1x32x1
  slices_S1x32x8_S1x32x1_0_0_7 : S1x32x8.Slices ![0, 0, 7] S1x32x1
  bcast_S1x32_S1x32x1_0_1 : S1x32.BroadcastsInDim S1x32x1 (![0, 1] : Fin 2 → Fin S1x32x1.rank)
  concatenates_S1x32x1_S1x32x1_S1x32x2_d2 : Shape.Concatenates [S1x32x1, S1x32x1] S1x32x2 2
  shapeCasts_S1x32x2_S32x1x2 : S1x32x2.ShapeCasts S32x1x2
  shapeCasts_S1x32_S32x1 : S1x32.ShapeCasts S32x1
  shapeCasts_S1x32_S32x1x1 : S1x32.ShapeCasts S32x1x1
  bcast_S1x1024x1024x2_S1x1024x1024x1x2_0_1_2_4 : S1x1024x1024x2.BroadcastsInDim S1x1024x1024x1x2 (![0, 1, 2, 4] : Fin 4 → Fin S1x1024x1024x1x2.rank)
  bcast_S32x1x2_S32x1x1x1x2_0_3_4 : S32x1x2.BroadcastsInDim S32x1x1x1x2 (![0, 3, 4] : Fin 3 → Fin S32x1x1x1x2.rank)
  bcast_S32x1x1_S32x1x1x1x1_0_3_4 : S32x1x1.BroadcastsInDim S32x1x1x1x1 (![0, 3, 4] : Fin 3 → Fin S32x1x1x1x1.rank)
  bcast_S32x1_S32x1x1_0_1 : S32x1.BroadcastsInDim S32x1x1 (![0, 1] : Fin 2 → Fin S32x1x1.rank)
  bcast_S1x1024x1024x1x2_S32x1024x1024x1x2_0_1_2_3_4 : S1x1024x1024x1x2.BroadcastsInDim S32x1024x1024x1x2 (![0, 1, 2, 3, 4] : Fin 5 → Fin S32x1024x1024x1x2.rank)
  bcast_S32x1x1x1x2_S32x1024x1024x1x2_0_1_2_3_4 : S32x1x1x1x2.BroadcastsInDim S32x1024x1024x1x2 (![0, 1, 2, 3, 4] : Fin 5 → Fin S32x1024x1024x1x2.rank)
  reducesTo_S32x1024x1024x1x2_S32x1024x1024x1_d4 : S32x1024x1024x1x2.ReducesTo [4] S32x1024x1024x1
  h_S_ : 0 < S_.numel
  bcast_S32x1024x1024x1_S32x1024x1024x1x1_0_1_2_3 : S32x1024x1024x1.BroadcastsInDim S32x1024x1024x1x1 (![0, 1, 2, 3] : Fin 4 → Fin S32x1024x1024x1x1.rank)
  bcast_S32x1x1x1x1_S32x1024x1024x1x1_0_1_2_3_4 : S32x1x1x1x1.BroadcastsInDim S32x1024x1024x1x1 (![0, 1, 2, 3, 4] : Fin 5 → Fin S32x1024x1024x1x1.rank)
  bcast_S_S32x1024x1024x1x1 : S_.BroadcastsInDim S32x1024x1024x1x1 (![] : Fin 0 → Fin S32x1024x1024x1x1.rank)
  slices_S32x1024x1024x1x2_S32x1024x1024x1x1_0_0_0_0_0 : S32x1024x1024x1x2.Slices ![0, 0, 0, 0, 0] S32x1024x1024x1x1
  shapeCasts_S32x1024x1024x1x1_S32x1024x1024x1 : S32x1024x1024x1x1.ShapeCasts S32x1024x1024x1
  slices_S32x1024x1024x1x2_S32x1024x1024x1x1_0_0_0_0_1 : S32x1024x1024x1x2.Slices ![0, 0, 0, 0, 1] S32x1024x1024x1x1
  concatenates_S32x1024x1024x1x1_S32x1024x1024x1x1_S32x1024x1024x1x2_d4 : Shape.Concatenates [S32x1024x1024x1x1, S32x1024x1024x1x1] S32x1024x1024x1x2 4
  bcast_S32x1024x1024x1x1_S32x1024x1024x1x2_0_1_2_3_4 : S32x1024x1024x1x1.BroadcastsInDim S32x1024x1024x1x2 (![0, 1, 2, 3, 4] : Fin 5 → Fin S32x1024x1024x1x2.rank)
  reducesTo_S32x1024x1024x1x2_S32x1024x1024x2_d3 : S32x1024x1024x1x2.ReducesTo [3] S32x1024x1024x2

variable [Facts₀]

class Facts : Prop extends Facts₀ where

variable [Facts]
-- ==== Proof.LibUnitAxes.lean ====
/-
  Layout operations on arrays with unit axes, read at an index written by coordinates.

  A per-item quantity (one number for each of `a` items) meets a grid of `b × c` positions by being laid out as an
  `[a, 1, 1]` array and broadcast to `[a, b, c]`; a per-position quantity meets the items as a `[1, b, c]` array broadcast
  the same way. Two `[a, b, c]` arrays are stacked as the two channels of an `[a, 2, b, c]` array by giving each a unit
  axis in position 1 and joining along it. A channel axis is moved between the last position and position 1 by a
  transpose. Each lemma below says which entry of the operand one of these operations reads at the index
  `ixN …`; all are over arbitrary extents and any element type.
-/
import Idealize.ShloMosaic.Lib.ValueLayout

namespace Idealize.ShloMosaic.ValueIdx

open Idealize.ShloMosaic

variable {α : Type}

/-! ## Unit axes dropped or added at the end or in the middle -/

/-- An `[a, 1]` column cast to the vector `[a]` reads, at `i`, the column's entry `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` cast to `[a, 1, 1]` reads, at `(i, u, v)`, the vector's entry `i`. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    omega)

/-- An `[a, b, c]` array cast to `[a, 1, b, c]` reads, at `(i, u, j, k)`, the operand at `(i, j, k)`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_four, Shape.rowMajor_val_three]
    show (i.val * b + j.val) * c + k.val = ((i.val * 1 + u.val) * b + j.val) * c + k.val
    rw [hu, Nat.mul_one, Nat.add_zero])

/-! ## Broadcasts at rank 3 -/

/-- An `[a, 1, 1]` array broadcast to `[a, b, c]` reads, at `(i, j, k)`, the operand's entry for item `i`. -/
theorem broadcastTo_a11_abc_apply {a b c : ℕ} (x : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ x h (ix3 i j k) = x (ix3 i (0 : Fin 1) (0 : Fin 1)) := by
  refine broadcastTo_apply x h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- A `[1, b, c]` array broadcast to `[a, b, c]` reads, at `(i, j, k)`, the operand's entry for position `(j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## A slice along the leading axis at rank 3 -/

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## Two arrays stacked along a unit axis in position 1 -/

/-- Two `[a, 1, b, c]` arrays joined along axis 1 read, at channel `0`, the first. -/
theorem concatenate_a1bc_pair_apply_zero {a b c : ℕ} (x₁ x₂ : (⟨4, ![a, 1, b, c]⟩ : Shape).Idx → α)
    (h : Shape.Concatenates [(⟨4, ![a, 1, b, c]⟩ : Shape), ⟨4, ![a, 1, b, c]⟩] ⟨4, ![a, 2, b, c]⟩ (1 : Fin 4))
    (i : Fin a) (j : Fin b) (k : Fin c) :
    concatenate ⟨4, ![a, 2, b, c]⟩ (1 : Fin 4) [⟨⟨4, ![a, 1, b, c]⟩, x₁⟩, ⟨⟨4, ![a, 1, b, c]⟩, x₂⟩] h (ix4 i (0 : Fin 2) j k)
      = x₁ (ix4 i (0 : Fin 1) j k) :=
  concatenate_pair_apply_left (t := ⟨4, ![a, 2, b, c]⟩) (1 : Fin 4) x₁ x₂ h (ix4 i (0 : Fin 2) j k) rfl (ix4 i (0 : Fin 1) j k) (fun ax => by
    match ax with
    | ⟨0, _⟩ => rfl
    | ⟨1, _⟩ => rfl
    | ⟨2, _⟩ => rfl
    | ⟨3, _⟩ => rfl)

/-- Two `[a, 1, b, c]` arrays joined along axis 1 read, at channel `1`, the second. -/
theorem concatenate_a1bc_pair_apply_one {a b c : ℕ} (x₁ x₂ : (⟨4, ![a, 1, b, c]⟩ : Shape).Idx → α)
    (h : Shape.Concatenates [(⟨4, ![a, 1, b, c]⟩ : Shape), ⟨4, ![a, 1, b, c]⟩] ⟨4, ![a, 2, b, c]⟩ (1 : Fin 4))
    (i : Fin a) (j : Fin b) (k : Fin c) :
    concatenate ⟨4, ![a, 2, b, c]⟩ (1 : Fin 4) [⟨⟨4, ![a, 1, b, c]⟩, x₁⟩, ⟨⟨4, ![a, 1, b, c]⟩, x₂⟩] h (ix4 i (1 : Fin 2) j k)
      = x₂ (ix4 i (0 : Fin 1) j k) :=
  concatenate_pair_apply_right (t := ⟨4, ![a, 2, b, c]⟩) (1 : Fin 4) x₁ x₂ h (ix4 i (1 : Fin 2) j k) rfl rfl (ix4 i (0 : Fin 1) j k) (fun ax hne => by
    match ax with
    | ⟨0, _⟩ => rfl
    | ⟨1, _⟩ => exact absurd rfl hne
    | ⟨2, _⟩ => rfl
    | ⟨3, _⟩ => rfl) rfl

/-! ## A channel axis moved between the last position and position 1 -/

/-- An `[m, a, b, c]` array with its last axis moved to position 1 (permutation `[0, 3, 1, 2]`) reads, at
    `(n, k, i, j)`, the operand at `(n, i, j, k)`. -/
theorem transpose_ix4_0312_apply {m a b c : ℕ} (x : (⟨4, ![m, a, b, c]⟩ : Shape).Idx → α)
    (h : (⟨4, ![m, a, b, c]⟩ : Shape).Transposes [0, 3, 1, 2] ⟨4, ![m, c, a, b]⟩)
    (n : Fin m) (k : Fin c) (i : Fin a) (j : Fin b) :
    transpose ⟨4, ![m, c, a, b]⟩ [0, 3, 1, 2] x h (ix4 n k i j) = x (ix4 n i j k) :=
  transpose_apply _ x h _ _ fun d => match d with | ⟨0, _⟩ => rfl | ⟨1, _⟩ => rfl | ⟨2, _⟩ => rfl | ⟨3, _⟩ => rfl

/-- An `[m, c, a, b]` array with axis 1 moved to the last position (permutation `[0, 2, 3, 1]`) reads, at
    `(n, i, j, k)`, the operand at `(n, k, i, j)`. -/
theorem transpose_ix4_0231_apply {m a b c : ℕ} (x : (⟨4, ![m, c, a, b]⟩ : Shape).Idx → α)
    (h : (⟨4, ![m, c, a, b]⟩ : Shape).Transposes [0, 2, 3, 1] ⟨4, ![m, a, b, c]⟩)
    (n : Fin m) (i : Fin a) (j : Fin b) (k : Fin c) :
    transpose ⟨4, ![m, a, b, c]⟩ [0, 2, 3, 1] x h (ix4 n i j k) = x (ix4 n k i j) :=
  transpose_apply _ x h _ _ fun d => match d with | ⟨0, _⟩ => rfl | ⟨1, _⟩ => rfl | ⟨2, _⟩ => rfl | ⟨3, _⟩ => rfl

end Idealize.ShloMosaic.ValueIdx
-- ==== Proof.VortexField.lean ====
/-
  The velocity that one point vortex induces at one point of the plane, as a function on the extended reals.

  A vortex has a centre `(y, x)`, a strength `τ`, an offset radius `off` and two widths: `σ_l` inside the offset circle and
  `σ_r = σ − σ_l` outside it. At a point `(p₀, p₁)` let `d = (p₀ − y, p₁ − x)`, `r = √(d₀² + d₁²)` the distance to the centre and
  `ρ = r − off` the signed distance to the offset circle. The falloff is the Gaussian `exp(−ρ²/σ_r²)` where `0 ≤ ρ` and
  `exp(−ρ²/σ_l²)` where `ρ < 0` — written with the indicator `𝟙[0 ≤ ρ]` and its complement — divided by `r`; the induced
  velocity is `τ · falloff` times the rotated offset `(d₁, −d₀)`.

  Two programs may spell this differently: a negation as `0 − t` or as `−t`; the second component as `(−s) · d₀` or as
  `s · (−d₀)`; the indicator from a comparison's bit widened to a word and read signed, or read unsigned as it is; a
  sum from a zero initial value. None of these differences is visible on the extended reals, at the infinities either:
  they use only `0 + t = t`, `0 − t = −t` and `(−s) · d = s · (−d)`.
-/
import Idealize.ShloMosaic.PureOps.Ideal.Laws
import Idealize.ShloMosaic.Lib.KernelVsHost

noncomputable section

namespace Cert.VortexField

open Idealize.ShloMosaic

/-- The indicator of `0 ≤ t`: one where it holds, zero elsewhere. -/
def ind (t : EReal) : EReal := (((Ideal.cmp .oge t 0).toNat : ℝ) : EReal)

/-- The distance from the point `(p₀, p₁)` to the centre `(y, x)`. -/
def dist (y x p0 p1 : EReal) : EReal := Ideal.sqrt ((p0 - y) * (p0 - y) + (p1 - x) * (p1 - x))

/-- The signed distance from the point to the offset circle: `ρ = r − off`. -/
def rho (y x off p0 p1 : EReal) : EReal := dist y x p0 p1 - off

/-- The Gaussian of width `s` at signed distance `ρ`: `exp(−ρ² / s²)`. -/
def bump (ρ s : EReal) : EReal := Ideal.exp (Ideal.div (-(ρ * ρ)) (s * s))

/-- The falloff at signed distance `ρ` and distance `r`: the outer Gaussian where `0 ≤ ρ`, the inner one elsewhere, over `r`. -/
def falloff (ρ sr sl r : EReal) : EReal :=
  Ideal.div (bump ρ sr * ind ρ + bump ρ sl * (Ideal.ofBits .f32 0x3F800000#32 - ind ρ)) r

/-- The vortex's strength at the point: `τ` times the falloff. -/
def strength (y x tau sig off sl p0 p1 : EReal) : EReal :=
  tau * falloff (rho y x off p0 p1) (sig - sl) sl (dist y x p0 p1)

/-- The induced velocity's component `c`: the strength times `d₁` for `c = 0`, minus the strength times `d₀` for `c = 1`. -/
def vel (y x tau sig off sl p0 p1 : EReal) (c : Fin 2) : EReal :=
  if c = 0 then strength y x tau sig off sl p0 p1 * (p1 - x) else -(strength y x tau sig off sl p0 p1) * (p0 - y)

/-! ## The spellings -/

/-- Zero taken from a float zero's word, minus `t`, is `−t`. -/
theorem zeroWord_sub (t : EReal) : Ideal.ofBits .f32 0x00000000#32 - t = -t := by
  rw [Ideal.ofBits_zero_f32, zero_sub]

/-- A sum started from a float zero's word is the sum. -/
theorem zeroWord_add (t : EReal) : Ideal.ofBits .f32 0x00000000#32 + t = t := by
  rw [Ideal.ofBits_zero_f32, zero_add]

/-- The comparison's bit, read unsigned, is the indicator. -/
theorem ind_of_bit (t : EReal) :
    ((((Ideal.cmp .oge t (Ideal.ofBits .f32 0x00000000#32)).toNat : ℕ) : ℝ) : EReal) = ind t := by
  rw [Ideal.ofBits_zero_f32]; rfl

/-- The comparison's bit, widened to a 32-bit word and read signed, is the indicator. -/
theorem ind_of_word (t : EReal) :
    (((((Ideal.cmp .oge t (Ideal.ofBits .f32 0x00000000#32)).setWidth 32).toInt : ℤ) : ℝ) : EReal) = ind t := by
  rw [toInt_setWidth_bit, Ideal.ofBits_zero_f32, Int.cast_natCast]; rfl

/-- Negating the strength or the offset gives the same second component. -/
theorem neg_mul_eq_mul_neg' (s d : EReal) : s * -d = -s * d := by
  rw [mul_neg, neg_mul]

end Cert.VortexField

end
-- ==== Proof.KernelBlock.lean ====
/-
  What the kernel's body leaves in one output block, entry by entry.

  At a grid point the body sees the 32 vortices' features as a `[1, 32, 8]` block `x₁` and a `128 × 128` tile of points as a
  `[1, 2, 128, 128]` block `x₀` (channel first), and stores a `[32, 2, 128, 128]` block. Entry `(n, c, h, w)` of that block is
  component `c` of the velocity that vortex `n` — features `x₁(0, n, ·)` — induces at the point `(x₀(0, 0, h, w), x₀(0, 1, h, w))`:
  every per-vortex quantity reaches the entry through a column of `x₁` laid out as `[32, 1, 1]` and broadcast over the tile,
  every per-point quantity through a channel of `x₀` laid out as `[1, 128, 128]` and broadcast over the vortices, and the two
  components are stacked along axis 1.
-/
import proofs.«172216_j14688788152368_2_alg».proof.Proof.Gen.KernelIdeal.Frame
import proofs.«172216_j14688788152368_2_alg».proof.Proof.LibUnitAxes
import proofs.«172216_j14688788152368_2_alg».proof.Proof.VortexField

noncomputable section

namespace Cert.KernelIdeal.BlockValue

open Cert.KernelIdeal Cert.KernelIdeal.Gen Idealize.ShloMosaic Idealize.ShloMosaic.ValueIdx Cert.VortexField

variable (v0 : Vec Ideal S1x32x8 .f32) (v21 : Vec Ideal S1x2x128x128 .f32)

/-- Feature `k` of vortex `n` in the feature block. -/
abbrev feat (v0 : Vec Ideal S1x32x8 .f32) (n : Fin 32) (k : Fin 8) : EReal := v0 (ix3 (0 : Fin 1) n k)

/-- Coordinate `cc` of the point at `(h, w)` in the point block. -/
abbrev pt (v21 : Vec Ideal S1x2x128x128 .f32) (cc : Fin 2) (h w : Fin 128) : EReal := v21 (ix4 (0 : Fin 1) cc h w)

/-! ## Columns of the feature block and channels of the point block -/

/-- Feature `o` of the vortices, cut out of the feature block as a vector over the vortices. -/
theorem feature_vec (o : Nat) (ho : o < 8) (hs : S32x8.Slices ![0, o] S32x1) (hc : S32x1.ShapeCasts S32) (n : Fin 32) :
    shapeCast S32 (extractStridedSlice S32x1 ![0, o] (k0_pay2 v0) hs) hc (ix1 n) = v0 (ix3 (0 : Fin 1) n ⟨o, ho⟩) :=
  (shapeCast_a1_a_apply _ hc n).trans
    ((slice2_axis1_apply o (k0_pay2 v0) hs n (0 : Fin 1) ⟨o, ho⟩ rfl).trans
      (shapeCast_1ab_ab_apply v0 _ n ⟨o, ho⟩))

/-- The same feature laid out as a `[32, 1, 1]` array. -/
theorem feature_col (o : Nat) (ho : o < 8) (hs : S32x8.Slices ![0, o] S32x1) (hc : S32x1.ShapeCasts S32)
    (hc' : S32.ShapeCasts S32x1x1) (n : Fin 32) (u v : Fin 1) :
    shapeCast S32x1x1 (shapeCast S32 (extractStridedSlice S32x1 ![0, o] (k0_pay2 v0) hs) hc) hc' (ix3 n u v)
      = v0 (ix3 (0 : Fin 1) n ⟨o, ho⟩) :=
  (shapeCast_a_a11_apply _ hc' n u v).trans (feature_vec v0 o ho hs hc n)

/-- Channel `o` of the point block, laid out as a `[1, 128, 128]` array. -/
theorem point_channel (o : Nat) (ho : o < 2) (hs : S2x128x128.Slices ![o, 0, 0] S1x128x128)
    (hc : S1x128x128.ShapeCasts S128x128) (hc' : S128x128.ShapeCasts S1x128x128) (u : Fin 1) (h w : Fin 128) :
    shapeCast S1x128x128 (shapeCast S128x128 (extractStridedSlice S1x128x128 ![o, 0, 0] (k0_pay6 v21) hs) hc) hc' (ix3 u h w)
      = v21 (ix4 (0 : Fin 1) (⟨o, ho⟩ : Fin 2) h w) :=
  (shapeCast_ab_1ab_apply _ hc' u h w).trans
    ((shapeCast_1ab_ab_apply _ hc h w).trans
      ((slice3_axis0_apply o (k0_pay6 v21) hs (0 : Fin 1) h w ⟨o, ho⟩ rfl).trans
        (shapeCast_1abc_abc_apply v21 _ (⟨o, ho⟩ : Fin 2) h w)))

/-! ## The payloads, entry by entry -/

/-- The strength `τ` of vortex `n`. -/
theorem tau_apply (n : Fin 32) (u v : Fin 1) : k0_pay3 v0 (ix3 n u v) = v0 (ix3 (0 : Fin 1) n (2 : Fin 8)) :=
  feature_col v0 2 (by omega) slices_S32x8_o0_2_S32x1 shapeCasts_S32x1_S32 shapeCasts_S32_S32x1x1 n u v

/-- The inner width `σ_l` of vortex `n`. -/
theorem sigl_apply (n : Fin 32) (u v : Fin 1) : k0_pay5 v0 (ix3 n u v) = v0 (ix3 (0 : Fin 1) n (7 : Fin 8)) :=
  feature_col v0 7 (by omega) slices_S32x8_o0_7_S32x1 shapeCasts_S32x1_S32 shapeCasts_S32_S32x1x1 n u v

/-- The square of the outer width `σ_r = σ − σ_l` of vortex `n`. -/
theorem sigr2_apply (n : Fin 32) (u v : Fin 1) :
    k0_pay14 v0 (ix3 n u v)
      = (v0 (ix3 (0 : Fin 1) n (3 : Fin 8)) - v0 (ix3 (0 : Fin 1) n (7 : Fin 8)))
        * (v0 (ix3 (0 : Fin 1) n (3 : Fin 8)) - v0 (ix3 (0 : Fin 1) n (7 : Fin 8))) := by
  have e : ∀ (hs3 : S32x8.Slices ![0, 3] S32x1) (hs7 : S32x8.Slices ![0, 7] S32x1) (hc : S32x1.ShapeCasts S32) (hc' : S32.ShapeCasts S32x1x1),
      shapeCast S32x1x1 (subf (shapeCast S32 (extractStridedSlice S32x1 ![0, 3] (k0_pay2 v0) hs3) hc)
          (shapeCast S32 (extractStridedSlice S32x1 ![0, 7] (k0_pay2 v0) hs7) hc)) hc' (ix3 n u v)
        = v0 (ix3 (0 : Fin 1) n (3 : Fin 8)) - v0 (ix3 (0 : Fin 1) n (7 : Fin 8)) := fun hs3 hs7 hc hc' =>
    (shapeCast_a_a11_apply _ hc' n u v).trans
      (congrArg₂ (· - ·) (feature_vec v0 3 (by omega) hs3 hc n) (feature_vec v0 7 (by omega) hs7 hc n))
  exact congrArg₂ (· * ·)
    (e slices_S32x8_o0_3_S32x1 slices_S32x8_o0_7_S32x1 shapeCasts_S32x1_S32 shapeCasts_S32_S32x1x1)
    (e slices_S32x8_o0_3_S32x1 slices_S32x8_o0_7_S32x1 shapeCasts_S32x1_S32 shapeCasts_S32_S32x1x1)

/-- The offset `d₀ = p₀ − y` of the point at `(h, w)` from the centre of vortex `n`. -/
theorem d0_apply (n : Fin 32) (h w : Fin 128) :
    k0_pay7 v0 v21 (ix3 n h w) = v21 (ix4 (0 : Fin 1) (0 : Fin 2) h w) - v0 (ix3 (0 : Fin 1) n (0 : Fin 8)) :=
  congrArg₂ (· - ·)
    ((broadcastTo_1bc_abc_apply _ broadcasts_S1x128x128_S32x128x128 n h w).trans
      (point_channel v21 0 (by omega) slices_S2x128x128_o0_0_0_S1x128x128 shapeCasts_S1x128x128_S128x128 shapeCasts_S128x128_S1x128x128 0 h w))
    ((broadcastTo_a11_abc_apply _ broadcasts_S32x1x1_S32x128x128 n h w).trans
      (feature_col v0 0 (by omega) slices_S32x8_o0_0_S32x1 shapeCasts_S32x1_S32 shapeCasts_S32_S32x1x1 n 0 0))

/-- The offset `d₁ = p₁ − x`. -/
theorem d1_apply (n : Fin 32) (h w : Fin 128) :
    k0_pay8 v0 v21 (ix3 n h w) = v21 (ix4 (0 : Fin 1) (1 : Fin 2) h w) - v0 (ix3 (0 : Fin 1) n (1 : Fin 8)) :=
  congrArg₂ (· - ·)
    ((broadcastTo_1bc_abc_apply _ broadcasts_S1x128x128_S32x128x128 n h w).trans
      (point_channel v21 1 (by omega) slices_S2x128x128_o1_0_0_S1x128x128 shapeCasts_S1x128x128_S128x128 shapeCasts_S128x128_S1x128x128 0 h w))
    ((broadcastTo_a11_abc_apply _ broadcasts_S32x1x1_S32x128x128 n h w).trans
      (feature_col v0 1 (by omega) slices_S32x8_o0_1_S32x1 shapeCasts_S32x1_S32 shapeCasts_S32_S32x1x1 n 0 0))

/-- The distance `r` from the point to the centre. -/
theorem dist_apply (n : Fin 32) (h w : Fin 128) :
    k0_pay9 v0 v21 (ix3 n h w) = dist (feat v0 n 0) (feat v0 n 1) (pt v21 0 h w) (pt v21 1 h w) := by
  show Ideal.sqrt (k0_pay7 v0 v21 (ix3 n h w) * k0_pay7 v0 v21 (ix3 n h w) + k0_pay8 v0 v21 (ix3 n h w) * k0_pay8 v0 v21 (ix3 n h w)) = _
  rw [d0_apply, d1_apply]; rfl

/-- The signed distance `ρ = r − off` to the offset circle. -/
theorem rho_apply (n : Fin 32) (h w : Fin 128) :
    k0_pay10 v0 v21 (ix3 n h w) = rho (feat v0 n 0) (feat v0 n 1) (feat v0 n 6) (pt v21 0 h w) (pt v21 1 h w) :=
  congrArg₂ (· - ·) (dist_apply v0 v21 n h w)
    ((broadcastTo_a11_abc_apply _ broadcasts_S32x1x1_S32x128x128 n h w).trans
      (feature_col v0 6 (by omega) slices_S32x8_o0_6_S32x1 shapeCasts_S32x1_S32 shapeCasts_S32_S32x1x1 n 0 0))

/-- Its square `ρ²`. -/
theorem rho2_apply (n : Fin 32) (h w : Fin 128) :
    k0_pay11 v0 v21 (ix3 n h w)
      = rho (feat v0 n 0) (feat v0 n 1) (feat v0 n 6) (pt v21 0 h w) (pt v21 1 h w)
        * rho (feat v0 n 0) (feat v0 n 1) (feat v0 n 6) (pt v21 0 h w) (pt v21 1 h w) := by
  show k0_pay10 v0 v21 (ix3 n h w) * k0_pay10 v0 v21 (ix3 n h w) = _
  rw [rho_apply]

/-- The indicator of `0 ≤ ρ`: the comparison's bit widened to a word and read signed. -/
theorem ind_apply (n : Fin 32) (h w : Fin 128) :
    k0_pay12 v0 v21 (ix3 n h w) = ind (rho (feat v0 n 0) (feat v0 n 1) (feat v0 n 6) (pt v21 0 h w) (pt v21 1 h w)) := by
  show (((((Ideal.cmp .oge (k0_pay10 v0 v21 (ix3 n h w)) (Ideal.ofBits .f32 0x00000000#32)).setWidth 32).toInt : ℤ) : ℝ) : EReal) = _
  rw [rho_apply, ind_of_word]

/-- `−ρ²`, which the body spells `0 − ρ²`. -/
theorem negrho2_apply (n : Fin 32) (h w : Fin 128) :
    k0_pay13 v0 v21 (ix3 n h w)
      = -(rho (feat v0 n 0) (feat v0 n 1) (feat v0 n 6) (pt v21 0 h w) (pt v21 1 h w)
        * rho (feat v0 n 0) (feat v0 n 1) (feat v0 n 6) (pt v21 0 h w) (pt v21 1 h w)) := by
  show Ideal.ofBits .f32 0x00000000#32 - k0_pay11 v0 v21 (ix3 n h w) = _
  rw [rho2_apply, zeroWord_sub]

/-! ## The stored value -/

section Store

variable (v10 v19 v48 : FVec Ideal S32x1x1 .f32) (v31 v34 v38 v41 v45 v47 : FVec Ideal S32x128x128 .f32)

/-- The strength the body computes at entry `(n, h, w)` from its ingredients: `τ` times the two Gaussians mixed by the
    indicator, over the distance. -/
def strengthAt (n : Fin 32) (h w : Fin 128) : EReal :=
  v10 (ix3 n (0 : Fin 1) (0 : Fin 1))
    * Ideal.div
        (Ideal.exp (Ideal.div (v47 (ix3 n h w)) (v48 (ix3 n (0 : Fin 1) (0 : Fin 1)))) * v45 (ix3 n h w)
          + Ideal.exp (Ideal.div (Ideal.ofBits .f32 0x00000000#32 - v41 (ix3 n h w))
              (v19 (ix3 n (0 : Fin 1) (0 : Fin 1)) * v19 (ix3 n (0 : Fin 1) (0 : Fin 1))))
            * (Ideal.ofBits .f32 0x3F800000#32 - v45 (ix3 n h w)))
        (v38 (ix3 n h w))

/-- The strength as an `[32, 128, 128]` array, before the two components are formed. -/
theorem strength_entry (hb : S32x1x1.Broadcasts S32x128x128) (n : Fin 32) (h w : Fin 128) :
    mulf (broadcastTo S32x128x128 v10 hb)
        (divf (addf (mulf (exp (divf v47 (broadcastTo S32x128x128 v48 hb))) v45)
          (mulf (exp (divf (subf (broadcast S32x128x128 (Scalar.ofBits .f32 0x00000000#32)) v41)
              (broadcastTo S32x128x128 (mulf v19 v19) hb)))
            (subf (broadcast S32x128x128 (Scalar.ofBits .f32 0x3F800000#32)) v45))) v38) (ix3 n h w)
      = strengthAt v10 v19 v48 v38 v41 v45 v47 n h w := by
  show broadcastTo S32x128x128 v10 hb (ix3 n h w)
      * Ideal.div (Ideal.exp (Ideal.div (v47 (ix3 n h w)) (broadcastTo S32x128x128 v48 hb (ix3 n h w))) * v45 (ix3 n h w)
          + Ideal.exp (Ideal.div (Ideal.ofBits .f32 0x00000000#32 - v41 (ix3 n h w)) (broadcastTo S32x128x128 (mulf v19 v19) hb (ix3 n h w)))
            * (Ideal.ofBits .f32 0x3F800000#32 - v45 (ix3 n h w))) (v38 (ix3 n h w)) = _
  rw [broadcastTo_a11_abc_apply v10 hb n h w, broadcastTo_a11_abc_apply v48 hb n h w,
    broadcastTo_a11_abc_apply (mulf v19 v19) hb n h w]
  rfl

/-- Channel 0 of the stored block: the strength times `d₁`. -/
theorem store_zero (n : Fin 32) (h w : Fin 128) :
    k0_pay1 v10 v19 v31 v34 v38 v41 v45 v47 v48 (ix4 n (0 : Fin 2) h w)
      = strengthAt v10 v19 v48 v38 v41 v45 v47 n h w * v34 (ix3 n h w) :=
  (concatenate_a1bc_pair_apply_zero _ _ concatenates_S32x1x128x128_S32x1x128x128_S32x2x128x128_d1 n h w).trans
    ((shapeCast_abc_a1bc_apply _ shapeCasts_S32x128x128_S32x1x128x128 n (0 : Fin 1) h w).trans
      (congrArg (· * v34 (ix3 n h w)) (strength_entry v10 v19 v48 v38 v41 v45 v47 broadcasts_S32x1x1_S32x128x128 n h w)))

/-- Channel 1 of the stored block: zero minus the strength, times `d₀`. -/
theorem store_one (n : Fin 32) (h w : Fin 128) :
    k0_pay1 v10 v19 v31 v34 v38 v41 v45 v47 v48 (ix4 n (1 : Fin 2) h w)
      = (Ideal.ofBits .f32 0x00000000#32 - strengthAt v10 v19 v48 v38 v41 v45 v47 n h w) * v31 (ix3 n h w) :=
  (concatenate_a1bc_pair_apply_one _ _ concatenates_S32x1x128x128_S32x1x128x128_S32x2x128x128_d1 n h w).trans
    ((shapeCast_abc_a1bc_apply _ shapeCasts_S32x128x128_S32x1x128x128 n (0 : Fin 1) h w).trans
      (congrArg (fun s => (Ideal.ofBits .f32 0x00000000#32 - s) * v31 (ix3 n h w))
        (strength_entry v10 v19 v48 v38 v41 v45 v47 broadcasts_S32x1x1_S32x128x128 n h w)))

end Store

/-! ## The block -/

/-- Entry `(n, c, h, w)` of the block the body stores is component `c` of the velocity vortex `n` induces at the point
    `(h, w)` of the tile. -/
theorem block_apply (n : Fin 32) (c : Fin 2) (h w : Fin 128) :
    k0_pay1 (k0_pay3 v0) (k0_pay5 v0) (k0_pay7 v0 v21) (k0_pay8 v0 v21) (k0_pay9 v0 v21) (k0_pay11 v0 v21) (k0_pay12 v0 v21)
        (k0_pay13 v0 v21) (k0_pay14 v0) (ix4 n c h w)
      = vel (feat v0 n 0) (feat v0 n 1) (feat v0 n 2) (feat v0 n 3) (feat v0 n 6) (feat v0 n 7) (pt v21 0 h w) (pt v21 1 h w) c := by
  have hs : strengthAt (k0_pay3 v0) (k0_pay5 v0) (k0_pay14 v0) (k0_pay9 v0 v21) (k0_pay11 v0 v21) (k0_pay12 v0 v21) (k0_pay13 v0 v21) n h w
      = strength (feat v0 n 0) (feat v0 n 1) (feat v0 n 2) (feat v0 n 3) (feat v0 n 6) (feat v0 n 7) (pt v21 0 h w) (pt v21 1 h w) := by
    unfold strengthAt
    rw [tau_apply, sigl_apply, sigr2_apply, dist_apply, rho2_apply, ind_apply, negrho2_apply, zeroWord_sub]
    rfl
  obtain rfl | rfl : c = 0 ∨ c = 1 := by omega
  · rw [store_zero, hs, d1_apply]; rfl
  · rw [store_one, hs, d0_apply, zeroWord_sub]; rfl

end Cert.KernelIdeal.BlockValue

end
-- ==== Proof.VelocityField.lean ====
/-
  The velocity field of 32 vortices on a 1024 × 1024 grid of points, as one array function of the two argument arrays.

  The feature array `[1, 32, 8]` holds for vortex `n` the centre `(y, x)` in features 0 and 1, the strength `τ` in 2, the total
  width `σ` in 3, the offset radius in 6 and the inner width `σ_l` in 7 (features 4 and 5 are not used). The point array
  `[1, 1024, 1024, 2]` holds the two coordinates of the point at `(H, W)` in its last axis. Entry `(n, H, W, c)` of the
  field is component `c` of the velocity vortex `n` induces at the point `(H, W)`.
-/
import proofs.«172216_j14688788152368_2_alg».proof.Proof.VortexField
import Idealize.ShloMosaic.Lib.ValueIdx

noncomputable section

namespace Cert.VortexField

open Idealize.ShloMosaic Idealize.ShloMosaic.ValueIdx

/-- Component 0 of the induced velocity: the strength times `d₁`. -/
theorem vel_zero (y x tau sig off sl p0 p1 : EReal) :
    vel y x tau sig off sl p0 p1 0 = strength y x tau sig off sl p0 p1 * (p1 - x) := if_pos rfl

/-- Component 1 of the induced velocity: minus the strength, times `d₀`. -/
theorem vel_one (y x tau sig off sl p0 p1 : EReal) :
    vel y x tau sig off sl p0 p1 1 = -(strength y x tau sig off sl p0 p1) * (p0 - y) := if_neg (by decide)

/-- Component `c` of the velocity vortex `n` induces at the point `(H, W)`. -/
def velAt (A0 : (⟨3, ![1, 32, 8]⟩ : Shape).Idx → EReal) (A1 : (⟨4, ![1, 1024, 1024, 2]⟩ : Shape).Idx → EReal)
    (n : Fin 32) (H W : Fin 1024) (c : Fin 2) : EReal :=
  vel (A0 (ix3 (0 : Fin 1) n (0 : Fin 8))) (A0 (ix3 (0 : Fin 1) n (1 : Fin 8))) (A0 (ix3 (0 : Fin 1) n (2 : Fin 8)))
    (A0 (ix3 (0 : Fin 1) n (3 : Fin 8))) (A0 (ix3 (0 : Fin 1) n (6 : Fin 8))) (A0 (ix3 (0 : Fin 1) n (7 : Fin 8)))
    (A1 (ix4 (0 : Fin 1) H W (0 : Fin 2))) (A1 (ix4 (0 : Fin 1) H W (1 : Fin 2))) c

/-- The whole field, channel axis last. -/
def field (A0 : (⟨3, ![1, 32, 8]⟩ : Shape).Idx → EReal) (A1 : (⟨4, ![1, 1024, 1024, 2]⟩ : Shape).Idx → EReal) :
    (⟨4, ![32, 1024, 1024, 2]⟩ : Shape).Idx → EReal := fun i => velAt A0 A1 (i 0) (i 1) (i 2) (i 3)

theorem field_apply (A0 : (⟨3, ![1, 32, 8]⟩ : Shape).Idx → EReal) (A1 : (⟨4, ![1, 1024, 1024, 2]⟩ : Shape).Idx → EReal)
    (n : Fin 32) (H W : Fin 1024) (c : Fin 2) : field A0 A1 (ix4 n H W c) = velAt A0 A1 n H W c := rfl

end Cert.VortexField

end
-- ==== Proof.KernelArray.lean ====
/-
  From the blocks to the whole array, and through the two transposes around the kernel.

  The kernel runs on an `8 × 8` grid of tiles. At tile `(i₀, i₁)` it reads rows `128·i₀ …` and columns `128·i₁ …` of the points
  (channel first, `[1, 2, 1024, 1024]`) and all of the features, and writes the same rows and columns of the
  `[32, 2, 1024, 1024]` output. So entry `(n, c, H, W)` of the output is component `c` of the velocity vortex `n` induces at the
  point `(H, W)`: a block of one function of the whole arrays, and the tiles cover the array (`H` lies in tile `H / 128`).
  Before the kernel the points' channel axis is moved from the last position to position 1, and after it the output's
  channel axis is moved back to the last position; read at an index these two moves cancel.
-/
import proofs.«172216_j14688788152368_2_alg».proof.Proof.KernelBlock
import proofs.«172216_j14688788152368_2_alg».proof.Proof.VelocityField
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.BlockValue Idealize.ShloMosaic Idealize.ShloMosaic.TcCoe
open Idealize.ShloMosaic.ValueIdx Idealize.ShloMosaic.Pipeline Idealize.SL.Sem Cert.VortexField

/-! ## The velocity field as whole arrays -/

/-- Component `c` of the velocity vortex `n` induces at grid point `(H, W)`, from the feature array and the points with
    the channel axis in position 1. -/
def velAtT (A0 : S1x32x8.Idx → Elt Ideal .f32) (A1 : S1x2x1024x1024.Idx → Elt Ideal .f32)
    (n : Fin 32) (c : Fin 2) (H W : Fin 1024) : Elt Ideal .f32 :=
  vel (A0 (ix3 (0 : Fin 1) n (0 : Fin 8))) (A0 (ix3 (0 : Fin 1) n (1 : Fin 8))) (A0 (ix3 (0 : Fin 1) n (2 : Fin 8)))
    (A0 (ix3 (0 : Fin 1) n (3 : Fin 8))) (A0 (ix3 (0 : Fin 1) n (6 : Fin 8))) (A0 (ix3 (0 : Fin 1) n (7 : Fin 8)))
    (A1 (ix4 (0 : Fin 1) (0 : Fin 2) H W)) (A1 (ix4 (0 : Fin 1) (1 : Fin 2) H W)) c

/-- The kernel's output array, channel axis in position 1. -/
def fieldT (A0 : S1x32x8.Idx → Elt Ideal .f32) (A1 : S1x2x1024x1024.Idx → Elt Ideal .f32) :
    S32x2x1024x1024.Idx → Elt Ideal .f32 := fun i => velAtT A0 A1 (i 0) (i 1) (i 2) (i 3)

variable (m : (ℓ : Loc nD τ sig) → Buf (Elt Ideal) ℓ) (ρ : Dev nD → PrngReg)

/-! ## The tiles -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: the points' tile moves with the output's tile on the two spatial axes, the
    features are one block, and a tile's indices are below 8. -/
theorem idx_facts : ∀ t : Fin cfg0.N,
    win0_0.index t (0 : Fin 4) = 0 ∧ win0_0.index t (1 : Fin 4) = 0
    ∧ win0_0.index t (2 : Fin 4) = win0_2.index t (2 : Fin 4) ∧ win0_0.index t (3 : Fin 4) = win0_2.index t (3 : Fin 4)
    ∧ win0_1.index t (0 : Fin 3) = 0 ∧ win0_1.index t (1 : Fin 3) = 0 ∧ win0_1.index t (2 : Fin 3) = 0
    ∧ win0_2.index t (0 : Fin 4) = 0 ∧ win0_2.index t (1 : Fin 4) = 0
    ∧ win0_2.index t (2 : Fin 4) ≤ 7 ∧ win0_2.index t (3 : Fin 4) ≤ 7 :=
  (by decide +kernel : ∀ t : Fin grid0.N, _)

/-- Every tile is some grid point's. -/
theorem idx_onto : ∀ (q0 q1 : Fin 8), ∃ t : Fin cfg0.N, win0_2.index t = ![0, 0, q0.val, q1.val] :=
  (by decide +kernel : ∀ (q0 q1 : Fin 8), ∃ t : Fin grid0.N, win0_2.index t = ![0, 0, q0.val, q1.val])

/-! ## What a grid point writes back -/

/-- The output block's entry `(n, c, h, w)` at point `t` sits at `(n, c, H, W)` of the output array, `H` and `W` the tile's
    offset plus `h` and `w`. -/
theorem emb_out (t : Fin cfg0.N) (n : Fin 32) (cc : Fin 2) (h w : Fin 128) (H W : Fin 1024)
    (hH : H.val = win0_2.index t (2 : Fin 4) * 128 + h.val) (hW : W.val = win0_2.index t (3 : Fin 4) * 128 + w.val) :
    ((cfg0.win 2).blk t).view.emb (ix4 n cc h w) = ix4 n cc H W := by
  obtain ⟨-, -, -, -, -, -, -, e0, e1, -, -⟩ := idx_facts t
  funext a; apply Fin.ext
  match a with
  | ⟨0, _⟩ => show win0_2.index t (0 : Fin 4) * 32 + 1 * n.val = n.val; omega
  | ⟨1, _⟩ => show win0_2.index t (1 : Fin 4) * 2 + 1 * cc.val = cc.val; omega
  | ⟨2, _⟩ => show win0_2.index t (2 : Fin 4) * 128 + 1 * h.val = H.val; omega
  | ⟨3, _⟩ => show win0_2.index t (3 : Fin 4) * 128 + 1 * w.val = W.val; omega

/-- The point block's entry `(0, c', h, w)` at point `t` is the points' entry `(0, c', H, W)`. -/
theorem pts_read (c : Dev nD) (t : Fin cfg0.N) (cc : Fin 2) (h w : Fin 128) (H W : Fin 1024)
    (hH : H.val = win0_2.index t (2 : Fin 4) * 128 + h.val) (hW : W.val = win0_2.index t (3 : Fin 4) * 128 + w.val) :
    iblk m c 0 t (ix4 (0 : Fin 1) cc h w) = V m c main_v0 (ix4 (0 : Fin 1) cc H W) := by
  obtain ⟨e0, e1, e2, e3, -, -, -, -, -, -, -⟩ := idx_facts t
  show V m c main_v0 (((cfg0.win 0).blk t).view.emb (ix4 (0 : Fin 1) cc h w)) = _
  refine congrArg (V m c main_v0) (funext fun a => Fin.ext ?_)
  match a with
  | ⟨0, _⟩ => show win0_0.index t (0 : Fin 4) * 1 + 1 * 0 = 0; omega
  | ⟨1, _⟩ => show win0_0.index t (1 : Fin 4) * 2 + 1 * cc.val = cc.val; omega
  | ⟨2, _⟩ => show win0_0.index t (2 : Fin 4) * 128 + 1 * h.val = H.val; omega
  | ⟨3, _⟩ => show win0_0.index t (3 : Fin 4) * 128 + 1 * w.val = W.val; omega

/-- The feature block at any point is the whole feature array. -/
theorem feat_read (c : Dev nD) (t : Fin cfg0.N) (n : Fin 32) (k : Fin 8) :
    iblk m c 1 t (ix3 (0 : Fin 1) n k) = V m c main_arg0 (ix3 (0 : Fin 1) n k) := by
  obtain ⟨-, -, -, -, e0, e1, e2, -, -, -, -⟩ := idx_facts t
  show V m c main_arg0 (((cfg0.win 1).blk t).view.emb (ix3 (0 : Fin 1) n k)) = _
  refine congrArg (V m c main_arg0) (funext fun a => Fin.ext ?_)
  match a with
  | ⟨0, _⟩ => show win0_1.index t (0 : Fin 3) * 1 + 1 * 0 = 0; omega
  | ⟨1, _⟩ => show win0_1.index t (1 : Fin 3) * 32 + 1 * n.val = n.val; omega
  | ⟨2, _⟩ => show win0_1.index t (2 : Fin 3) * 8 + 1 * k.val = k.val; omega

/-- WHAT POINT `t` WRITES BACK is block `t` of the field of the arrays as the region finds them. -/
theorem flushed_eq (c : Dev nD) (t : Fin cfg0.N) :
    (dats m 0 c).flushed 2 t = ((cfg0.win 2).blk t).view.read (Elt Ideal) (fieldT (V m c main_arg0) (V m c main_v0)) := by
  show (cfg0.win 2).cut (grid0.coords t) ((dats m 0 c).after 2 t) = _
  rw [after0_2]
  unfold out0_2
  rw [View.canon_unit_zero hz4]
  simp only [View.ld_unit_zero (S := S1x32x8) hz3, View.ld_unit_zero (S := S1x2x128x128) hz4]
  funext j
  obtain ⟨n, cc, h, w, rfl⟩ : ∃ (n : Fin 32) (cc : Fin 2) (h w : Fin 128), j = ix4 n cc h w := ⟨j 0, j 1, j 2, j 3, eq_ix4 j⟩
  obtain ⟨-, -, -, -, -, -, -, -, -, b2, b3⟩ := idx_facts t
  have hH : win0_2.index t (2 : Fin 4) * 128 + h.val < 1024 := by have := h.isLt; omega
  have hW : win0_2.index t (3 : Fin 4) * 128 + w.val < 1024 := by have := w.isLt; omega
  refine (block_apply (iblk m c 1 t) (iblk m c 0 t) n cc h w).trans ?_
  show _ = fieldT (V m c main_arg0) (V m c main_v0) (((cfg0.win 2).blk t).view.emb (ix4 n cc h w))
  rw [emb_out t n cc h w ⟨_, hH⟩ ⟨_, hW⟩ rfl rfl]
  show vel (iblk m c 1 t (ix3 (0 : Fin 1) n 0)) (iblk m c 1 t (ix3 (0 : Fin 1) n 1)) (iblk m c 1 t (ix3 (0 : Fin 1) n 2))
      (iblk m c 1 t (ix3 (0 : Fin 1) n 3)) (iblk m c 1 t (ix3 (0 : Fin 1) n 6)) (iblk m c 1 t (ix3 (0 : Fin 1) n 7))
      (iblk m c 0 t (ix4 (0 : Fin 1) 0 h w)) (iblk m c 0 t (ix4 (0 : Fin 1) 1 h w)) cc
    = velAtT (V m c main_arg0) (V m c main_v0) n cc ⟨_, hH⟩ ⟨_, hW⟩
  rw [feat_read, feat_read, feat_read, feat_read, feat_read, feat_read,
    pts_read m c t 0 h w ⟨_, hH⟩ ⟨_, hW⟩ rfl rfl, pts_read m c t 1 h w ⟨_, hH⟩ ⟨_, hW⟩ rfl rfl]
  rfl

/-! ## The tiles cover the array -/

/-- An index of the output array is in point `t`'s block iff each coordinate is in the block's range on its axis. -/
theorem mem_blk (t : Fin cfg0.N) (i : S32x2x1024x1024.Idx) :
    i ∈ ((cfg0.win 2).blk t).view.set ↔ ∀ a : Fin 4, win0_2.index t a * S32x2x128x128.size a ≤ (i a).val ∧ (i a).val < win0_2.index t a * S32x2x128x128.size a + S32x2x128x128.size a := by
  show i ∈ ((View.whole main_v1).slice (win0_2.rect t)).set ↔ _
  rw [View.set_slice_whole, Rect.mem_set_unit]
  exact Iff.rfl

/-- Every index of the output array lies in the block of the tile its two spatial coordinates fall in. -/
theorem cover (i : S32x2x1024x1024.Idx) :
    ∃ t : Fin cfg0.N, (cfg0.win 2).flush t = true ∧ i ∈ ((cfg0.win 2).blk t).view.set := by
  have hi0 : (i 0).val < 32 := (i 0).isLt
  have hi1 : (i 1).val < 2 := (i 1).isLt
  have hi2 : (i 2).val < 1024 := (i 2).isLt
  have hi3 : (i 3).val < 1024 := (i 3).isLt
  obtain ⟨t, ht⟩ := idx_onto ⟨(i 2).val / 128, by omega⟩ ⟨(i 3).val / 128, by omega⟩
  have q0 : win0_2.index t (0 : Fin 4) = 0 := congrFun ht 0
  have q1 : win0_2.index t (1 : Fin 4) = 0 := congrFun ht 1
  have q2 : win0_2.index t (2 : Fin 4) = (i 2).val / 128 := congrFun ht 2
  have q3 : win0_2.index t (3 : Fin 4) = (i 3).val / 128 := congrFun ht 3
  refine ⟨t, flush0_2 t, ?_⟩
  rw [mem_blk]
  intro a
  match a with
  | ⟨0, _⟩ => show win0_2.index t (0 : Fin 4) * 32 ≤ (i 0).val ∧ (i 0).val < win0_2.index t (0 : Fin 4) * 32 + 32; omega
  | ⟨1, _⟩ => show win0_2.index t (1 : Fin 4) * 2 ≤ (i 1).val ∧ (i 1).val < win0_2.index t (1 : Fin 4) * 2 + 2; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- THE OUTPUT ARRAY after the region: the field of the arrays as the region finds them, channel axis in position 1. -/
theorem final (c : Dev nD) : (dats m 0 c).arrAt 2 cfg0.N = fieldT (V m c main_arg0) (V m c main_v0) :=
  (dats m 0 c).arrAt_eq_of_cover 2 _ (fun t _ => flushed_eq m c t) cover

/-! ## The two transposes -/

/-- The points as the region finds them: the host's transpose of the argument. -/
theorem V_main_v0 (c : Dev nD) :
    (V m c main_v0 : S1x2x1024x1024.Idx → Elt Ideal .f32)
      = transpose S1x2x1024x1024 [0, 3, 1, 2] (m ((c : Thread nD τ).loc main_arg1)) transposes_S1x1024x1024x2_S1x2x1024x1024_0_3_1_2 := by
  show StableHlo.after hostOps0 (fun b => m (c, b)) (Proc.devRef .tc main_v0) = _
  after_results

/-- The field with the channel axis in position 1, read at the transposed points, is the field with the channel
    axis last: the two transposes only rename coordinates. -/
theorem transpose_fieldT (A0 : S1x32x8.Idx → Elt Ideal .f32) (A1 : S1x1024x1024x2.Idx → Elt Ideal .f32) :
    transpose S32x1024x1024x2 [0, 2, 3, 1]
        (fieldT A0 (transpose S1x2x1024x1024 [0, 3, 1, 2] A1 transposes_S1x1024x1024x2_S1x2x1024x1024_0_3_1_2))
        transposes_S32x2x1024x1024_S32x1024x1024x2_0_2_3_1
      = field A0 A1 := by
  funext i
  obtain ⟨n, H, W, cc, rfl⟩ : ∃ (n : Fin 32) (H W : Fin 1024) (cc : Fin 2), i = ix4 n H W cc := ⟨i 0, i 1, i 2, i 3, eq_ix4 i⟩
  rw [transpose_ix4_0231_apply]
  show velAtT A0 _ n cc H W = velAt A0 A1 n H W cc
  unfold velAtT velAt
  rw [transpose_ix4_0312_apply, transpose_ix4_0312_apply]

/-- @main's result: the transpose of the region's output array is the velocity field of the two arguments. -/
theorem result_eq (c : Dev nD) :
    Pipeline.afterTail₀ cfgs (dats m) 0 (V0 m) [hostOps1] c main_v2
      = field (m ((c : Thread nD τ).loc main_arg0)) (m ((c : Thread nD τ).loc main_arg1)) := by
  unfold Pipeline.afterTail₀
  show StableHlo.after hostOps1 _ (Proc.devRef .tc main_v2) = _
  after_results
  have e := (Pipeline.withArrays_arr spec0 launch0.win.arr_inj c (V0 m c) (fun w => (dats m 0 c).arrAt w (cfgs 0).N) 2).trans (final m c)
  rw [V_main_arg0, V_main_v0] at e
  exact (congrArg (fun a => transpose S32x1024x1024x2 [0, 2, 3, 1] a transposes_S32x2x1024x1024_S32x1024x1024x2_0_2_3_1) e).trans
    (transpose_fieldT _ _)

/-! ## The run -/

/-- Every weakly fair execution of the idealized kernel's @main terminates with the result array at the velocity field of
    the two arguments, and the arguments unchanged: the frame run, its result read. -/
theorem run : θ_run defs (onTc (τ := τ) (main (F := Ideal))) ⟨m, fun _ => 0, ρ⟩ fun r => ∀ c : Dev nD,
      r.2.mem ((c.tc : Thread nD τ).loc main_v2) = field (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.KernelIdeal.ArrayValue

end
-- ==== Proof.LibUnitJoin.lean ====
/-
  Two arrays joined along a trailing unit axis, read at an index written by coordinates.

  Stacking two quantities as the two entries of a last axis — two coordinates of a centre, two components of a vector —
  is a join of two arrays whose last axis has extent one. At last coordinate `0` the join reads the first array, at `1` the
  second, each at the same leading coordinates. Stated at ranks 3 and 5, over arbitrary leading extents and any element
  type.
-/
import Idealize.ShloMosaic.Lib.ValueLayout

namespace Idealize.ShloMosaic.ValueIdx

open Idealize.ShloMosaic

variable {α : Type}

/-- Two `[a, b, 1]` arrays joined along axis 2 read, at last coordinate `0`, the first. -/
theorem concatenate_ab1_pair_apply_zero {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3))
    (i : Fin a) (j : Fin b) :
    concatenate ⟨3, ![a, b, 2]⟩ (2 : Fin 3) [⟨⟨3, ![a, b, 1]⟩, x₁⟩, ⟨⟨3, ![a, b, 1]⟩, x₂⟩] h (ix3 i j (0 : Fin 2))
      = x₁ (ix3 i j (0 : Fin 1)) :=
  concatenate_pair_apply_left (t := ⟨3, ![a, b, 2]⟩) (2 : Fin 3) x₁ x₂ h (ix3 i j (0 : Fin 2)) rfl (ix3 i j (0 : Fin 1)) (fun ax => by
    match ax with
    | ⟨0, _⟩ => rfl
    | ⟨1, _⟩ => rfl
    | ⟨2, _⟩ => rfl)

/-- Two `[a, b, 1]` arrays joined along axis 2 read, at last coordinate `1`, the second. -/
theorem concatenate_ab1_pair_apply_one {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3))
    (i : Fin a) (j : Fin b) :
    concatenate ⟨3, ![a, b, 2]⟩ (2 : Fin 3) [⟨⟨3, ![a, b, 1]⟩, x₁⟩, ⟨⟨3, ![a, b, 1]⟩, x₂⟩] h (ix3 i j (1 : Fin 2))
      = x₂ (ix3 i j (0 : Fin 1)) :=
  concatenate_pair_apply_right (t := ⟨3, ![a, b, 2]⟩) (2 : Fin 3) x₁ x₂ h (ix3 i j (1 : Fin 2)) rfl rfl (ix3 i j (0 : Fin 1)) (fun ax hne => by
    match ax with
    | ⟨0, _⟩ => rfl
    | ⟨1, _⟩ => rfl
    | ⟨2, _⟩ => exact absurd rfl hne) rfl

/-- Two `[a, b, c, d, 1]` arrays joined along axis 4 read, at last coordinate `0`, the first. -/
theorem concatenate_abcd1_pair_apply_zero {a b c d : ℕ} (x₁ x₂ : (⟨5, ![a, b, c, d, 1]⟩ : Shape).Idx → α)
    (h : Shape.Concatenates [(⟨5, ![a, b, c, d, 1]⟩ : Shape), ⟨5, ![a, b, c, d, 1]⟩] ⟨5, ![a, b, c, d, 2]⟩ (4 : Fin 5))
    (i : Fin a) (j : Fin b) (k : Fin c) (l : Fin d) :
    concatenate ⟨5, ![a, b, c, d, 2]⟩ (4 : Fin 5) [⟨⟨5, ![a, b, c, d, 1]⟩, x₁⟩, ⟨⟨5, ![a, b, c, d, 1]⟩, x₂⟩] h (ix5 i j k l (0 : Fin 2))
      = x₁ (ix5 i j k l (0 : Fin 1)) :=
  concatenate_pair_apply_left (t := ⟨5, ![a, b, c, d, 2]⟩) (4 : Fin 5) x₁ x₂ h (ix5 i j k l (0 : Fin 2)) rfl (ix5 i j k l (0 : Fin 1)) (fun ax => by
    match ax with
    | ⟨0, _⟩ => rfl
    | ⟨1, _⟩ => rfl
    | ⟨2, _⟩ => rfl
    | ⟨3, _⟩ => rfl
    | ⟨4, _⟩ => rfl)

/-- Two `[a, b, c, d, 1]` arrays joined along axis 4 read, at last coordinate `1`, the second. -/
theorem concatenate_abcd1_pair_apply_one {a b c d : ℕ} (x₁ x₂ : (⟨5, ![a, b, c, d, 1]⟩ : Shape).Idx → α)
    (h : Shape.Concatenates [(⟨5, ![a, b, c, d, 1]⟩ : Shape), ⟨5, ![a, b, c, d, 1]⟩] ⟨5, ![a, b, c, d, 2]⟩ (4 : Fin 5))
    (i : Fin a) (j : Fin b) (k : Fin c) (l : Fin d) :
    concatenate ⟨5, ![a, b, c, d, 2]⟩ (4 : Fin 5) [⟨⟨5, ![a, b, c, d, 1]⟩, x₁⟩, ⟨⟨5, ![a, b, c, d, 1]⟩, x₂⟩] h (ix5 i j k l (1 : Fin 2))
      = x₂ (ix5 i j k l (0 : Fin 1)) :=
  concatenate_pair_apply_right (t := ⟨5, ![a, b, c, d, 2]⟩) (4 : Fin 5) x₁ x₂ h (ix5 i j k l (1 : Fin 2)) rfl rfl (ix5 i j k l (0 : Fin 1)) (fun ax hne => by
    match ax with
    | ⟨0, _⟩ => rfl
    | ⟨1, _⟩ => rfl
    | ⟨2, _⟩ => rfl
    | ⟨3, _⟩ => rfl
    | ⟨4, _⟩ => exact absurd rfl hne) rfl

end Idealize.ShloMosaic.ValueIdx
-- ==== Proof.RefStages.lean ====
/-
  The reference's arithmetic as five stages of whole arrays, and each stage read entry by entry.

  The reference unbinds the eight features of each vortex (a slice and a reshape each), lays the per-vortex quantities out
  as `[32, 1, 1, 1, ·]` arrays (the centre `(y, x)` stacked along the last axis; the outer width `σ − σ_l`, the inner width, the
  offset radius and the strength as single columns) and the points as `[1, 1024, 1024, 1, 2]`, and from there works on
  `[32, 1024, 1024, 1, ·]` arrays: the offsets `d = p − centre`; the distance `r` (the squares summed over the last axis from a
  zero initial value, then the root); the strength `τ · falloff` (the signed distance `ρ = r − off`, the indicator of `0 ≤ ρ`
  from the comparison's bit, the two Gaussians `exp(−ρ²/σ²)` mixed by the indicator, over `r`); and the result: the rotated
  offset `(d₁, −d₀)` stacked along the last axis, times the strength, summed over the unit axis 3 from zero.
  Read at entry `(n, H, W, c)`, every broadcast, reshape and slice only renames coordinates, the sums add a zero, and
  `s · (−d₀) = (−s) · d₀`: the result is the velocity field.
-/
import proofs.«172216_j14688788152368_2_alg».proof.Proof.Gen.ReferenceIdeal
import proofs.«172216_j14688788152368_2_alg».proof.Proof.VelocityField
import proofs.«172216_j14688788152368_2_alg».proof.Proof.LibUnitJoin
import Idealize.ShloMosaic.Lib.ValueLayout
import Idealize.ShloMosaic.PureOps.Ideal.Laws

noncomputable section

namespace Cert.ReferenceIdeal.RefStages

open Cert.ReferenceIdeal Cert.ReferenceIdeal.Gen Idealize.ShloMosaic Idealize.ShloMosaic.ValueIdx Cert.VortexField

/-- A float array of shape `S` at the ideal values. -/
abbrev Arr (S : Shape) : Type := FVec Ideal S .f32

/-! ## The stages -/

/-- Feature `k` of every vortex, as a `[1, 32]` array. -/
def featVec (k : Nat) (hs : S1x32x8.Slices ![0, 0, k] S1x32x1) (A0 : Arr S1x32x8) : Arr S1x32 :=
  shapeCast S1x32 (extractStridedSlice S1x32x1 ![0, 0, k] A0 hs) shapeCasts_S1x32x1_S1x32

/-- The centres `(y, x)` as a `[32, 1, 1, 1, 2]` array. -/
def locArr (u0 u1 : Arr S1x32) : Arr S32x1x1x1x2 :=
  broadcastInDim S32x1x1x1x2 ![0, 3, 4] bcast_S32x1x2_S32x1x1x1x2_0_3_4
    (shapeCast S32x1x2
      (concatenate S1x32x2 2 [⟨S1x32x1, broadcastInDim S1x32x1 ![0, 1] bcast_S1x32_S1x32x1_0_1 u0⟩,
        ⟨S1x32x1, broadcastInDim S1x32x1 ![0, 1] bcast_S1x32_S1x32x1_0_1 u1⟩] concatenates_S1x32x1_S1x32x1_S1x32x2_d2)
      shapeCasts_S1x32x2_S32x1x2)

/-- A per-vortex quantity as a `[32, 1, 1, 1, 1]` array. -/
def col5 (u : Arr S1x32) : Arr S32x1x1x1x1 :=
  broadcastInDim S32x1x1x1x1 ![0, 3, 4] bcast_S32x1x1_S32x1x1x1x1_0_3_4 (shapeCast S32x1x1 u shapeCasts_S1x32_S32x1x1)

/-- The strengths as a `[32, 1, 1, 1, 1]` array (reshaped to `[32, 1]` first, then given its unit axes). -/
def tau5 (u : Arr S1x32) : Arr S32x1x1x1x1 :=
  broadcastInDim S32x1x1x1x1 ![0, 3, 4] bcast_S32x1x1_S32x1x1x1x1_0_3_4
    (broadcastInDim S32x1x1 ![0, 1] bcast_S32x1_S32x1x1_0_1 (shapeCast S32x1 u shapeCasts_S1x32_S32x1))

/-- The points as a `[1, 1024, 1024, 1, 2]` array. -/
def pts5 (A1 : Arr S1x1024x1024x2) : Arr S1x1024x1024x1x2 :=
  broadcastInDim S1x1024x1024x1x2 ![0, 1, 2, 4] bcast_S1x1024x1024x2_S1x1024x1024x1x2_0_1_2_4 A1

/-- The offsets `d = p − centre` of every point from every vortex. -/
def offsets (Pt : Arr S1x1024x1024x1x2) (L : Arr S32x1x1x1x2) : Arr S32x1024x1024x1x2 :=
  subf (broadcastInDim S32x1024x1024x1x2 ![0, 1, 2, 3, 4] bcast_S1x1024x1024x1x2_S32x1024x1024x1x2_0_1_2_3_4 Pt)
    (broadcastInDim S32x1024x1024x1x2 ![0, 1, 2, 3, 4] bcast_S32x1x1x1x2_S32x1024x1024x1x2_0_1_2_3_4 L)

/-- A `[32, 1024, 1024, 1]` array given its last unit axis back. -/
def up5 (u : Arr S32x1024x1024x1) : Arr S32x1024x1024x1x1 :=
  broadcastInDim S32x1024x1024x1x1 ![0, 1, 2, 3] bcast_S32x1024x1024x1_S32x1024x1024x1x1_0_1_2_3 u

/-- The squared offsets summed over the last axis, from a zero initial value. -/
def sumSq (D : Arr S32x1024x1024x1x2) : Arr S32x1024x1024x1 :=
  Host.reduceAdd (F := Ideal) (mulf D D) (constant (F := Ideal) S_ .f32 0x00000000#32)
    reducesTo_S32x1024x1024x1x2_S32x1024x1024x1_d4 h_S_

/-- The distances: the root of that sum. -/
def distArr (D : Arr S32x1024x1024x1x2) : Arr S32x1024x1024x1x1 := Host.sqrt (F := Ideal) (up5 (sumSq D))

/-- A per-vortex column laid over the whole grid. -/
def bc5 (u : Arr S32x1x1x1x1) : Arr S32x1024x1024x1x1 :=
  broadcastInDim S32x1024x1024x1x1 ![0, 1, 2, 3, 4] bcast_S32x1x1x1x1_S32x1024x1024x1x1_0_1_2_3_4 u

/-- A constant laid over the whole grid. -/
def cst5 (b : BitVec 32) : Arr S32x1024x1024x1x1 :=
  broadcastInDim S32x1024x1024x1x1 ![] bcast_S_S32x1024x1024x1x1 (constant (F := Ideal) S_ .f32 b)

/-- The strengths `τ · falloff` from the distances and the per-vortex columns. -/
def strengthArr (R : Arr S32x1024x1024x1x1) (off sr sl tau : Arr S32x1x1x1x1) : Arr S32x1024x1024x1x1 :=
  mulf (bc5 tau)
    (Host.divf (F := Ideal)
      (addf
        (mulf (Host.exp (F := Ideal) (Host.divf (F := Ideal) (Host.negf (F := Ideal) (mulf (subf R (bc5 off)) (subf R (bc5 off)))) (bc5 (mulf sr sr))))
          (uitofp .f32 (cmpf .oge (subf R (bc5 off)) (cst5 0x00000000#32))))
        (mulf (Host.exp (F := Ideal) (Host.divf (F := Ideal) (Host.negf (F := Ideal) (mulf (subf R (bc5 off)) (subf R (bc5 off)))) (bc5 (mulf sl sl))))
          (subf (cst5 0x3F800000#32) (uitofp .f32 (cmpf .oge (subf R (bc5 off)) (cst5 0x00000000#32))))))
      R)

/-- Coordinate `c` of the offsets, as a `[32, 1024, 1024, 1]` array. -/
def comp (c : Nat) (hs : S32x1024x1024x1x2.Slices ![0, 0, 0, 0, c] S32x1024x1024x1x1) (D : Arr S32x1024x1024x1x2) :
    Arr S32x1024x1024x1 :=
  shapeCast S32x1024x1024x1 (extractStridedSlice S32x1024x1024x1x1 ![0, 0, 0, 0, c] D hs) shapeCasts_S32x1024x1024x1x1_S32x1024x1024x1

/-- The result: the rotated offset `(d₁, −d₀)` times the strength, summed over the unit axis 3. -/
def resultArr (D : Arr S32x1024x1024x1x2) (St : Arr S32x1024x1024x1x1) : Arr S32x1024x1024x2 :=
  Host.reduceAdd (F := Ideal)
    (mulf (broadcastInDim S32x1024x1024x1x2 ![0, 1, 2, 3, 4] bcast_S32x1024x1024x1x1_S32x1024x1024x1x2_0_1_2_3_4 St)
      (concatenate S32x1024x1024x1x2 4
        [⟨S32x1024x1024x1x1, up5 (comp 1 slices_S32x1024x1024x1x2_S32x1024x1024x1x1_0_0_0_0_1 D)⟩,
          ⟨S32x1024x1024x1x1, up5 (Host.negf (F := Ideal) (comp 0 slices_S32x1024x1024x1x2_S32x1024x1024x1x1_0_0_0_0_0 D))⟩]
        concatenates_S32x1024x1024x1x1_S32x1024x1024x1x1_S32x1024x1024x1x2_d4))
    (constant (F := Ideal) S_ .f32 0x00000000#32) reducesTo_S32x1024x1024x1x2_S32x1024x1024x2_d3 h_S_

/-- The reference's offsets, distances, strengths and result as functions of its two arguments. -/
def refD (A0 : Arr S1x32x8) (A1 : Arr S1x1024x1024x2) : Arr S32x1024x1024x1x2 :=
  offsets (pts5 A1) (locArr (featVec 0 slices_S1x32x8_S1x32x1_0_0_0 A0) (featVec 1 slices_S1x32x8_S1x32x1_0_0_1 A0))
def refS (A0 : Arr S1x32x8) (A1 : Arr S1x1024x1024x2) : Arr S32x1024x1024x1x1 :=
  strengthArr (distArr (refD A0 A1)) (col5 (featVec 6 slices_S1x32x8_S1x32x1_0_0_6 A0))
    (col5 (subf (featVec 3 slices_S1x32x8_S1x32x1_0_0_3 A0) (featVec 7 slices_S1x32x8_S1x32x1_0_0_7 A0)))
    (col5 (featVec 7 slices_S1x32x8_S1x32x1_0_0_7 A0)) (tau5 (featVec 2 slices_S1x32x8_S1x32x1_0_0_2 A0))
def refOut (A0 : Arr S1x32x8) (A1 : Arr S1x1024x1024x2) : Arr S32x1024x1024x2 :=
  resultArr (refD A0 A1) (refS A0 A1)

/-! ## Layout operations read at an index -/

/-- Feature `k` of vortex `n`. -/
theorem featVec_apply (k : Nat) (hk : k < 8) (hs : S1x32x8.Slices ![0, 0, k] S1x32x1) (A0 : Arr S1x32x8) (n : Fin 32) :
    featVec k hs A0 (ix2 (0 : Fin 1) n) = A0 (ix3 (0 : Fin 1) n ⟨k, hk⟩) := by
  unfold featVec
  refine (shapeCast_apply _ shapeCasts_S1x32x1_S1x32 (ix2 (0 : Fin 1) n) (ix3 (0 : Fin 1) n (0 : Fin 1)) ?_).trans ?_
  · rw [Shape.rowMajor_val_three, Shape.rowMajor_val_two]
    show (0 * 32 + n.val) * 1 + 0 = 0 * 32 + n.val
    omega
  · exact extractStridedSlice_apply ![0, 0, k] A0 hs _ (ix3 (0 : Fin 1) n ⟨k, hk⟩) (fun a => match a with
      | ⟨0, _⟩ => rfl
      | ⟨1, _⟩ => (Nat.zero_add _).symm
      | ⟨2, _⟩ => rfl)

/-- A `[1, 32]` array reshaped to `[32, 1, 1]` and given two more unit axes reads the vortex's entry. -/
theorem col5_apply (u : Arr S1x32) (n : Fin 32) :
    col5 u (ix5 n (0 : Fin 1) (0 : Fin 1) (0 : Fin 1) (0 : Fin 1)) = u (ix2 (0 : Fin 1) n) := by
  unfold col5
  refine (broadcastInDim_apply _ bcast_S32x1x1_S32x1x1x1x1_0_3_4 _ _ (ix3 n (0 : Fin 1) (0 : Fin 1)) (fun a => match a with
    | ⟨0, _⟩ => rfl | ⟨1, _⟩ => rfl | ⟨2, _⟩ => rfl)).trans ?_
  refine shapeCast_apply u shapeCasts_S1x32_S32x1x1 _ (ix2 (0 : Fin 1) n) ?_
  rw [Shape.rowMajor_val_three, Shape.rowMajor_val_two]
  show 0 * 32 + n.val = (n.val * 1 + 0) * 1 + 0
  omega

/-- The strengths' layout reads the vortex's entry. -/
theorem tau5_apply (u : Arr S1x32) (n : Fin 32) :
    tau5 u (ix5 n (0 : Fin 1) (0 : Fin 1) (0 : Fin 1) (0 : Fin 1)) = u (ix2 (0 : Fin 1) n) := by
  unfold tau5
  refine (broadcastInDim_apply _ bcast_S32x1x1_S32x1x1x1x1_0_3_4 _ _ (ix3 n (0 : Fin 1) (0 : Fin 1)) (fun a => match a with
    | ⟨0, _⟩ => rfl | ⟨1, _⟩ => rfl | ⟨2, _⟩ => rfl)).trans ?_
  refine (broadcastInDim_apply _ bcast_S32x1_S32x1x1_0_1 _ _ (ix2 n (0 : Fin 1)) (fun a => match a with
    | ⟨0, _⟩ => rfl | ⟨1, _⟩ => rfl)).trans ?_
  refine shapeCast_apply u shapeCasts_S1x32_S32x1 _ (ix2 (0 : Fin 1) n) ?_
  rw [Shape.rowMajor_val_two, Shape.rowMajor_val_two]
  show 0 * 32 + n.val = n.val * 1 + 0
  omega

/-- The centres' layout at last coordinate `0` reads `u₀`. -/
theorem locArr_zero (u0 u1 : Arr S1x32) (n : Fin 32) :
    locArr u0 u1 (ix5 n (0 : Fin 1) (0 : Fin 1) (0 : Fin 1) (0 : Fin 2)) = u0 (ix2 (0 : Fin 1) n) := by
  unfold locArr
  refine (broadcastInDim_apply _ bcast_S32x1x2_S32x1x1x1x2_0_3_4 _ _ (ix3 n (0 : Fin 1) (0 : Fin 2)) (fun a => match a with
    | ⟨0, _⟩ => rfl | ⟨1, _⟩ => rfl | ⟨2, _⟩ => rfl)).trans ?_
  refine (shapeCast_apply _ shapeCasts_S1x32x2_S32x1x2 _ (ix3 (0 : Fin 1) n (0 : Fin 2)) ?_).trans ?_
  · rw [Shape.rowMajor_val_three, Shape.rowMajor_val_three]
    show (0 * 32 + n.val) * 2 + 0 = (n.val * 1 + 0) * 2 + 0
    omega
  refine (concatenate_ab1_pair_apply_zero _ _ concatenates_S1x32x1_S1x32x1_S1x32x2_d2 (0 : Fin 1) n).trans ?_
  exact broadcastInDim_apply _ bcast_S1x32_S1x32x1_0_1 u0 _ (ix2 (0 : Fin 1) n) (fun a => match a with
    | ⟨0, _⟩ => rfl | ⟨1, _⟩ => rfl)

/-- The centres' layout at last coordinate `1` reads `u₁`. -/
theorem locArr_one (u0 u1 : Arr S1x32) (n : Fin 32) :
    locArr u0 u1 (ix5 n (0 : Fin 1) (0 : Fin 1) (0 : Fin 1) (1 : Fin 2)) = u1 (ix2 (0 : Fin 1) n) := by
  unfold locArr
  refine (broadcastInDim_apply _ bcast_S32x1x2_S32x1x1x1x2_0_3_4 _ _ (ix3 n (0 : Fin 1) (1 : Fin 2)) (fun a => match a with
    | ⟨0, _⟩ => rfl | ⟨1, _⟩ => rfl | ⟨2, _⟩ => rfl)).trans ?_
  refine (shapeCast_apply _ shapeCasts_S1x32x2_S32x1x2 _ (ix3 (0 : Fin 1) n (1 : Fin 2)) ?_).trans ?_
  · rw [Shape.rowMajor_val_three, Shape.rowMajor_val_three]
    show (0 * 32 + n.val) * 2 + 1 = (n.val * 1 + 0) * 2 + 1
    omega
  refine (concatenate_ab1_pair_apply_one _ _ concatenates_S1x32x1_S1x32x1_S1x32x2_d2 (0 : Fin 1) n).trans ?_
  exact broadcastInDim_apply _ bcast_S1x32_S1x32x1_0_1 u1 _ (ix2 (0 : Fin 1) n) (fun a => match a with
    | ⟨0, _⟩ => rfl | ⟨1, _⟩ => rfl)

/-- The points' layout reads the point's coordinate. -/
theorem pts5_apply (A1 : Arr S1x1024x1024x2) (H W : Fin 1024) (c : Fin 2) :
    pts5 A1 (ix5 (0 : Fin 1) H W (0 : Fin 1) c) = A1 (ix4 (0 : Fin 1) H W c) :=
  broadcastInDim_apply _ bcast_S1x1024x1024x2_S1x1024x1024x1x2_0_1_2_4 A1 (ix5 (0 : Fin 1) H W (0 : Fin 1) c) (ix4 (0 : Fin 1) H W c) (fun a => match a with
    | ⟨0, _⟩ => rfl | ⟨1, _⟩ => rfl | ⟨2, _⟩ => rfl | ⟨3, _⟩ => rfl)

/-- The offsets entry by entry. -/
theorem offsets_apply (Pt : Arr S1x1024x1024x1x2) (L : Arr S32x1x1x1x2) (n : Fin 32) (H W : Fin 1024) (c : Fin 2) :
    offsets Pt L (ix5 n H W (0 : Fin 1) c)
      = Pt (ix5 (0 : Fin 1) H W (0 : Fin 1) c) - L (ix5 n (0 : Fin 1) (0 : Fin 1) (0 : Fin 1) c) := by
  unfold offsets
  exact congrArg₂ (· - ·)
    (broadcastInDim_apply _ bcast_S1x1024x1024x1x2_S32x1024x1024x1x2_0_1_2_3_4 Pt (ix5 n H W (0 : Fin 1) c) (ix5 (0 : Fin 1) H W (0 : Fin 1) c) (fun a => match a with
      | ⟨0, _⟩ => rfl | ⟨1, _⟩ => rfl | ⟨2, _⟩ => rfl | ⟨3, _⟩ => rfl | ⟨4, _⟩ => rfl))
    (broadcastInDim_apply _ bcast_S32x1x1x1x2_S32x1024x1024x1x2_0_1_2_3_4 L (ix5 n H W (0 : Fin 1) c) (ix5 n (0 : Fin 1) (0 : Fin 1) (0 : Fin 1) c) (fun a => match a with
      | ⟨0, _⟩ => rfl | ⟨1, _⟩ => rfl | ⟨2, _⟩ => rfl | ⟨3, _⟩ => rfl | ⟨4, _⟩ => rfl))

/-- A per-vortex column laid over the grid reads the vortex's entry. -/
theorem bc5_apply (u : Arr S32x1x1x1x1) (n : Fin 32) (H W : Fin 1024) :
    bc5 u (ix5 n H W (0 : Fin 1) (0 : Fin 1)) = u (ix5 n (0 : Fin 1) (0 : Fin 1) (0 : Fin 1) (0 : Fin 1)) :=
  broadcastInDim_apply _ bcast_S32x1x1x1x1_S32x1024x1024x1x1_0_1_2_3_4 u (ix5 n H W (0 : Fin 1) (0 : Fin 1)) (ix5 n (0 : Fin 1) (0 : Fin 1) (0 : Fin 1) (0 : Fin 1)) (fun a => match a with
    | ⟨0, _⟩ => rfl | ⟨1, _⟩ => rfl | ⟨2, _⟩ => rfl | ⟨3, _⟩ => rfl | ⟨4, _⟩ => rfl)

/-- A constant laid over the grid reads the constant. -/
theorem cst5_apply (b : BitVec 32) (i : S32x1024x1024x1x1.Idx) : cst5 b i = Ideal.ofBits .f32 b := rfl

/-- The sum of the two squared offsets entry by entry. -/
theorem sumSq_apply (D : Arr S32x1024x1024x1x2) (n : Fin 32) (H W : Fin 1024) :
    sumSq D (ix4 n H W (0 : Fin 1))
      = D (ix5 n H W (0 : Fin 1) (0 : Fin 2)) * D (ix5 n H W (0 : Fin 1) (0 : Fin 2))
        + D (ix5 n H W (0 : Fin 1) (1 : Fin 2)) * D (ix5 n H W (0 : Fin 1) (1 : Fin 2)) := by
  have e : sumSq D (ix4 n H W (0 : Fin 1))
      = Ideal.ofBits .f32 0x00000000#32 + ∑ k : Fin 2, (mulf D D) (ix5 n H W (0 : Fin 1) k) := by
    unfold sumSq
    simp only [Host.reduceAdd, Ideal.hostReduceAdd_def]
    rw [Ideal.hostReduceAdd_single reducesTo_S32x1024x1024x1x2_S32x1024x1024x1_d4 (by decide)]
    refine congrArg (_ + ·) (Finset.sum_congr rfl fun k _ => ?_)
    exact congrArg (mulf D D) (funext fun a => Fin.ext (by
      match a with | ⟨0, _⟩ => rfl | ⟨1, _⟩ => rfl | ⟨2, _⟩ => rfl | ⟨3, _⟩ => rfl | ⟨4, _⟩ => rfl))
  rw [e, Fin.sum_univ_two, zeroWord_add]
  rfl

/-- A `[32, 1024, 1024, 1]` array given its unit axis back reads the same entry. -/
theorem up5_apply (u : Arr S32x1024x1024x1) (n : Fin 32) (H W : Fin 1024) :
    up5 u (ix5 n H W (0 : Fin 1) (0 : Fin 1)) = u (ix4 n H W (0 : Fin 1)) :=
  broadcastInDim_apply _ bcast_S32x1024x1024x1_S32x1024x1024x1x1_0_1_2_3 u (ix5 n H W (0 : Fin 1) (0 : Fin 1)) (ix4 n H W (0 : Fin 1)) (fun a => match a with
    | ⟨0, _⟩ => rfl | ⟨1, _⟩ => rfl | ⟨2, _⟩ => rfl | ⟨3, _⟩ => rfl)

/-- The distance entry by entry: the root of the two squared offsets' sum. -/
theorem distArr_apply (D : Arr S32x1024x1024x1x2) (n : Fin 32) (H W : Fin 1024) :
    distArr D (ix5 n H W (0 : Fin 1) (0 : Fin 1))
      = Ideal.sqrt (D (ix5 n H W (0 : Fin 1) (0 : Fin 2)) * D (ix5 n H W (0 : Fin 1) (0 : Fin 2))
          + D (ix5 n H W (0 : Fin 1) (1 : Fin 2)) * D (ix5 n H W (0 : Fin 1) (1 : Fin 2))) := by
  show Ideal.sqrt (up5 (sumSq D) (ix5 n H W (0 : Fin 1) (0 : Fin 1))) = _
  rw [up5_apply, sumSq_apply]

/-- Coordinate `c` of the offsets, given its unit axis back, reads the offsets' entry. -/
theorem up5_comp_apply (c : Nat) (hc : c < 2) (hs : S32x1024x1024x1x2.Slices ![0, 0, 0, 0, c] S32x1024x1024x1x1)
    (D : Arr S32x1024x1024x1x2) (n : Fin 32) (H W : Fin 1024) :
    comp c hs D (ix4 n H W (0 : Fin 1)) = D (ix5 n H W (0 : Fin 1) (⟨c, hc⟩ : Fin 2)) := by
  unfold comp
  refine (shapeCast_apply _ shapeCasts_S32x1024x1024x1x1_S32x1024x1024x1 _ (ix5 n H W (0 : Fin 1) (0 : Fin 1)) ?_).trans ?_
  · rw [Shape.rowMajor_val_five, Shape.rowMajor_val_four]
    show ((((n.val * 1024 + H.val) * 1024 + W.val) * 1 + 0) * 1 + 0) = ((n.val * 1024 + H.val) * 1024 + W.val) * 1 + 0
    omega
  · exact extractStridedSlice_apply ![0, 0, 0, 0, c] D hs _ (ix5 n H W (0 : Fin 1) (⟨c, hc⟩ : Fin 2)) (fun a => match a with
      | ⟨0, _⟩ => (Nat.zero_add _).symm
      | ⟨1, _⟩ => (Nat.zero_add _).symm
      | ⟨2, _⟩ => (Nat.zero_add _).symm
      | ⟨3, _⟩ => rfl
      | ⟨4, _⟩ => rfl)

/-- A sum over the unit axis 3 from a zero initial value reads the one summand. -/
theorem reduce_unit (X : Arr S32x1024x1024x1x2) (n : Fin 32) (H W : Fin 1024) (c : Fin 2) :
    Host.reduceAdd (F := Ideal) X (constant (F := Ideal) S_ .f32 0x00000000#32)
        reducesTo_S32x1024x1024x1x2_S32x1024x1024x2_d3 h_S_ (ix4 n H W c) = X (ix5 n H W (0 : Fin 1) c) := by
  have e : Host.reduceAdd (F := Ideal) X (constant (F := Ideal) S_ .f32 0x00000000#32)
      reducesTo_S32x1024x1024x1x2_S32x1024x1024x2_d3 h_S_ (ix4 n H W c)
      = Ideal.ofBits .f32 0x00000000#32 + ∑ k : Fin 1, X (ix5 n H W k c) := by
    simp only [Host.reduceAdd, Ideal.hostReduceAdd_def]
    rw [Ideal.hostReduceAdd_single reducesTo_S32x1024x1024x1x2_S32x1024x1024x2_d3 (by decide)]
    refine congrArg (_ + ·) (Finset.sum_congr rfl fun k _ => ?_)
    exact congrArg X (funext fun a => Fin.ext (by
      match a with | ⟨0, _⟩ => rfl | ⟨1, _⟩ => rfl | ⟨2, _⟩ => rfl | ⟨3, _⟩ => rfl | ⟨4, _⟩ => rfl))
  rw [e, Fin.sum_univ_one, zeroWord_add]

/-! ## The stages entry by entry -/

/-- The strength at a point from the distance there and the vortex's columns. -/
theorem strengthArr_apply (R : Arr S32x1024x1024x1x1) (off sr sl tau : Arr S32x1x1x1x1) (n : Fin 32) (H W : Fin 1024) :
    strengthArr R off sr sl tau (ix5 n H W (0 : Fin 1) (0 : Fin 1))
      = tau (ix5 n (0 : Fin 1) (0 : Fin 1) (0 : Fin 1) (0 : Fin 1))
        * falloff (R (ix5 n H W (0 : Fin 1) (0 : Fin 1)) - off (ix5 n (0 : Fin 1) (0 : Fin 1) (0 : Fin 1) (0 : Fin 1)))
            (sr (ix5 n (0 : Fin 1) (0 : Fin 1) (0 : Fin 1) (0 : Fin 1))) (sl (ix5 n (0 : Fin 1) (0 : Fin 1) (0 : Fin 1) (0 : Fin 1)))
            (R (ix5 n H W (0 : Fin 1) (0 : Fin 1))) := by
  show bc5 tau (ix5 n H W (0 : Fin 1) (0 : Fin 1))
      * Ideal.div
          (Ideal.exp (Ideal.div
              (-((R (ix5 n H W (0 : Fin 1) (0 : Fin 1)) - bc5 off (ix5 n H W (0 : Fin 1) (0 : Fin 1)))
                * (R (ix5 n H W (0 : Fin 1) (0 : Fin 1)) - bc5 off (ix5 n H W (0 : Fin 1) (0 : Fin 1)))))
              (bc5 (mulf sr sr) (ix5 n H W (0 : Fin 1) (0 : Fin 1))))
            * ((((Ideal.cmp .oge (R (ix5 n H W (0 : Fin 1) (0 : Fin 1)) - bc5 off (ix5 n H W (0 : Fin 1) (0 : Fin 1)))
                (cst5 0x00000000#32 (ix5 n H W (0 : Fin 1) (0 : Fin 1)))).toNat : ℕ) : ℝ) : EReal)
          + Ideal.exp (Ideal.div
              (-((R (ix5 n H W (0 : Fin 1) (0 : Fin 1)) - bc5 off (ix5 n H W (0 : Fin 1) (0 : Fin 1)))
                * (R (ix5 n H W (0 : Fin 1) (0 : Fin 1)) - bc5 off (ix5 n H W (0 : Fin 1) (0 : Fin 1)))))
              (bc5 (mulf sl sl) (ix5 n H W (0 : Fin 1) (0 : Fin 1))))
            * (cst5 0x3F800000#32 (ix5 n H W (0 : Fin 1) (0 : Fin 1))
              - ((((Ideal.cmp .oge (R (ix5 n H W (0 : Fin 1) (0 : Fin 1)) - bc5 off (ix5 n H W (0 : Fin 1) (0 : Fin 1)))
                  (cst5 0x00000000#32 (ix5 n H W (0 : Fin 1) (0 : Fin 1)))).toNat : ℕ) : ℝ) : EReal)))
          (R (ix5 n H W (0 : Fin 1) (0 : Fin 1))) = _
  rw [bc5_apply, bc5_apply, bc5_apply, bc5_apply, cst5_apply, cst5_apply, ind_of_bit]
  rfl

/-- Channel 0 of the result: the strength times `d₁`. -/
theorem resultArr_zero (D : Arr S32x1024x1024x1x2) (St : Arr S32x1024x1024x1x1) (n : Fin 32) (H W : Fin 1024) :
    resultArr D St (ix4 n H W (0 : Fin 2))
      = St (ix5 n H W (0 : Fin 1) (0 : Fin 1)) * D (ix5 n H W (0 : Fin 1) (1 : Fin 2)) := by
  unfold resultArr
  rw [reduce_unit]
  refine congrArg₂ (· * ·)
    (broadcastInDim_apply _ bcast_S32x1024x1024x1x1_S32x1024x1024x1x2_0_1_2_3_4 St (ix5 n H W (0 : Fin 1) _) (ix5 n H W (0 : Fin 1) (0 : Fin 1)) (fun a => match a with
      | ⟨0, _⟩ => rfl | ⟨1, _⟩ => rfl | ⟨2, _⟩ => rfl | ⟨3, _⟩ => rfl | ⟨4, _⟩ => rfl))
    ((concatenate_abcd1_pair_apply_zero _ _ concatenates_S32x1024x1024x1x1_S32x1024x1024x1x1_S32x1024x1024x1x2_d4 n H W (0 : Fin 1)).trans
      ((up5_apply _ n H W).trans (up5_comp_apply 1 (by omega) _ D n H W)))

/-- Channel 1 of the result: the strength times `−d₀`. -/
theorem resultArr_one (D : Arr S32x1024x1024x1x2) (St : Arr S32x1024x1024x1x1) (n : Fin 32) (H W : Fin 1024) :
    resultArr D St (ix4 n H W (1 : Fin 2))
      = St (ix5 n H W (0 : Fin 1) (0 : Fin 1)) * -(D (ix5 n H W (0 : Fin 1) (0 : Fin 2))) := by
  unfold resultArr
  rw [reduce_unit]
  refine congrArg₂ (· * ·)
    (broadcastInDim_apply _ bcast_S32x1024x1024x1x1_S32x1024x1024x1x2_0_1_2_3_4 St (ix5 n H W (0 : Fin 1) _) (ix5 n H W (0 : Fin 1) (0 : Fin 1)) (fun a => match a with
      | ⟨0, _⟩ => rfl | ⟨1, _⟩ => rfl | ⟨2, _⟩ => rfl | ⟨3, _⟩ => rfl | ⟨4, _⟩ => rfl))
    ((concatenate_abcd1_pair_apply_one _ _ concatenates_S32x1024x1024x1x1_S32x1024x1024x1x1_S32x1024x1024x1x2_d4 n H W (0 : Fin 1)).trans
      ((up5_apply _ n H W).trans (congrArg (fun t : EReal => -t) (up5_comp_apply 0 (by omega) _ D n H W))))

/-! ## The reference's arrays entry by entry -/

variable (A0 : Arr S1x32x8) (A1 : Arr S1x1024x1024x2)

/-- Feature `k` of vortex `n`. -/
abbrev feat (A0 : Arr S1x32x8) (n : Fin 32) (k : Fin 8) : EReal := A0 (ix3 (0 : Fin 1) n k)

/-- Coordinate `c` of the point at `(H, W)`. -/
abbrev pt (A1 : Arr S1x1024x1024x2) (H W : Fin 1024) (c : Fin 2) : EReal := A1 (ix4 (0 : Fin 1) H W c)

/-- The offset `d₀ = p₀ − y`. -/
theorem refD_zero (n : Fin 32) (H W : Fin 1024) :
    refD A0 A1 (ix5 n H W (0 : Fin 1) (0 : Fin 2)) = pt A1 H W 0 - feat A0 n 0 := by
  unfold refD
  rw [offsets_apply, pts5_apply, locArr_zero, featVec_apply 0 (by omega)]
  rfl

/-- The offset `d₁ = p₁ − x`. -/
theorem refD_one (n : Fin 32) (H W : Fin 1024) :
    refD A0 A1 (ix5 n H W (0 : Fin 1) (1 : Fin 2)) = pt A1 H W 1 - feat A0 n 1 := by
  unfold refD
  rw [offsets_apply, pts5_apply, locArr_one, featVec_apply 1 (by omega)]
  rfl

/-- The distance from the point to the centre. -/
theorem refR_apply (n : Fin 32) (H W : Fin 1024) :
    distArr (refD A0 A1) (ix5 n H W (0 : Fin 1) (0 : Fin 1)) = dist (feat A0 n 0) (feat A0 n 1) (pt A1 H W 0) (pt A1 H W 1) := by
  rw [distArr_apply, refD_zero, refD_one]
  rfl

/-- The strength of vortex `n` at the point. -/
theorem refS_apply (n : Fin 32) (H W : Fin 1024) :
    refS A0 A1 (ix5 n H W (0 : Fin 1) (0 : Fin 1))
      = strength (feat A0 n 0) (feat A0 n 1) (feat A0 n 2) (feat A0 n 3) (feat A0 n 6) (feat A0 n 7) (pt A1 H W 0) (pt A1 H W 1) := by
  unfold refS
  rw [strengthArr_apply, refR_apply, tau5_apply, col5_apply, col5_apply, col5_apply, subf_apply,
    featVec_apply 2 (by omega), featVec_apply 6 (by omega), featVec_apply 3 (by omega), featVec_apply 7 (by omega)]
  rfl

/-- Entry `(n, H, W, c)` of the reference's result is component `c` of the velocity vortex `n` induces at `(H, W)`. -/
theorem refOut_apply (n : Fin 32) (H W : Fin 1024) (c : Fin 2) : refOut A0 A1 (ix4 n H W c) = velAt A0 A1 n H W c := by
  unfold refOut
  obtain rfl | rfl : c = 0 ∨ c = 1 := by omega
  · rw [resultArr_zero, refS_apply, refD_one]
    exact (vel_zero _ _ _ _ _ _ _ _).symm
  · rw [resultArr_one, refS_apply, refD_zero]
    exact (neg_mul_eq_mul_neg' _ _).trans (vel_one _ _ _ _ _ _ _ _).symm

/-- The reference's result is the velocity field of its two arguments. -/
theorem refOut_eq : refOut A0 A1 = field A0 A1 := by
  funext i
  obtain ⟨n, H, W, c, rfl⟩ : ∃ (n : Fin 32) (H W : Fin 1024) (c : Fin 2), i = ix4 n H W c := ⟨i 0, i 1, i 2, i 3, eq_ix4 i⟩
  exact refOut_apply A0 A1 n H W c

end Cert.ReferenceIdeal.RefStages

end
-- ==== Proof.RefRun.lean ====
/-
  The reference's run: every weakly fair execution of its @main ends with the velocity field in the result buffer.

  @main is a straight line of 78 host operations, so its run is the library's run of a list of operations, which leaves
  every buffer at the operations applied in order to the launch contents. That composition is read here in five
  stretches — the features unbound; the per-vortex columns and the points laid out; the offsets and the distances; the
  strengths; the result — each over an arbitrary valuation of the buffers: a stretch's outputs are the stage functions of
  Proof/RefStages.lean at the buffers it reads, and the buffers it does not write pass through. Chained, the result
  buffer holds `refOut` of the two argument buffers, which is the velocity field; no operation writes an argument.
-/
import proofs.«172216_j14688788152368_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefStages Cert.VortexField

variable {F : FTy → Type} [FloatOps F]

/-! ## @main as a list of operations -/

/-- @main's 78 operations, in order. -/
abbrev ops : List (HloOp τ sig (Elt F)) :=
  [ unary main_arg0 main_v0 ((extractStridedSlice S1x32x1 ![0, 0, 0] · slices_S1x32x8_S1x32x1_0_0_0) : (⟨S1x32x8, .f32⟩ : BufTy).Contents (Elt F) → (⟨S1x32x1, .f32⟩ : BufTy).Contents (Elt F)),
    reshape main_v0 main_v1 rfl shapeCasts_S1x32x1_S1x32,
    unary main_arg0 main_v2 ((extractStridedSlice S1x32x1 ![0, 0, 1] · slices_S1x32x8_S1x32x1_0_0_1) : (⟨S1x32x8, .f32⟩ : BufTy).Contents (Elt F) → (⟨S1x32x1, .f32⟩ : BufTy).Contents (Elt F)),
    reshape main_v2 main_v3 rfl shapeCasts_S1x32x1_S1x32,
    unary main_arg0 main_v4 ((extractStridedSlice S1x32x1 ![0, 0, 2] · slices_S1x32x8_S1x32x1_0_0_2) : (⟨S1x32x8, .f32⟩ : BufTy).Contents (Elt F) → (⟨S1x32x1, .f32⟩ : BufTy).Contents (Elt F)),
    reshape main_v4 main_v5 rfl shapeCasts_S1x32x1_S1x32,
    unary main_arg0 main_v6 ((extractStridedSlice S1x32x1 ![0, 0, 3] · slices_S1x32x8_S1x32x1_0_0_3) : (⟨S1x32x8, .f32⟩ : BufTy).Contents (Elt F) → (⟨S1x32x1, .f32⟩ : BufTy).Contents (Elt F)),
    reshape main_v6 main_v7 rfl shapeCasts_S1x32x1_S1x32,
    unary main_arg0 main_v8 ((extractStridedSlice S1x32x1 ![0, 0, 4] · slices_S1x32x8_S1x32x1_0_0_4) : (⟨S1x32x8, .f32⟩ : BufTy).Contents (Elt F) → (⟨S1x32x1, .f32⟩ : BufTy).Contents (Elt F)),
    reshape main_v8 main_v9 rfl shapeCasts_S1x32x1_S1x32,
    unary main_arg0 main_v10 ((extractStridedSlice S1x32x1 ![0, 0, 5] · slices_S1x32x8_S1x32x1_0_0_5) : (⟨S1x32x8, .f32⟩ : BufTy).Contents (Elt F) → (⟨S1x32x1, .f32⟩ : BufTy).Contents (Elt F)),
    reshape main_v10 main_v11 rfl shapeCasts_S1x32x1_S1x32,
    unary main_arg0 main_v12 ((extractStridedSlice S1x32x1 ![0, 0, 6] · slices_S1x32x8_S1x32x1_0_0_6) : (⟨S1x32x8, .f32⟩ : BufTy).Contents (Elt F) → (⟨S1x32x1, .f32⟩ : BufTy).Contents (Elt F)),
    reshape main_v12 main_v13 rfl shapeCasts_S1x32x1_S1x32,
    unary main_arg0 main_v14 ((extractStridedSlice S1x32x1 ![0, 0, 7] · slices_S1x32x8_S1x32x1_0_0_7) : (⟨S1x32x8, .f32⟩ : BufTy).Contents (Elt F) → (⟨S1x32x1, .f32⟩ : BufTy).Contents (Elt F)),
    reshape main_v14 main_v15 rfl shapeCasts_S1x32x1_S1x32,
    binary main_v7 main_v15 main_v16 (subf : (⟨S1x32, .f32⟩ : BufTy).Contents (Elt F) → (⟨S1x32, .f32⟩ : BufTy).Contents (Elt F) → (⟨S1x32, .f32⟩ : BufTy).Contents (Elt F)),
    unary main_v1 main_v17 (broadcastInDim S1x32x1 ![0, 1] bcast_S1x32_S1x32x1_0_1 : (⟨S1x32, .f32⟩ : BufTy).Contents (Elt F) → (⟨S1x32x1, .f32⟩ : BufTy).Contents (Elt F)),
    unary main_v3 main_v18 (broadcastInDim S1x32x1 ![0, 1] bcast_S1x32_S1x32x1_0_1 : (⟨S1x32, .f32⟩ : BufTy).Contents (Elt F) → (⟨S1x32x1, .f32⟩ : BufTy).Contents (Elt F)),
    binary main_v17 main_v18 main_v19 ((fun a b => concatenate S1x32x2 2 [⟨S1x32x1, a⟩, ⟨S1x32x1, b⟩] concatenates_S1x32x1_S1x32x1_S1x32x2_d2) : (⟨S1x32x1, .f32⟩ : BufTy).Contents (Elt F) → (⟨S1x32x1, .f32⟩ : BufTy).Contents (Elt F) → (⟨S1x32x2, .f32⟩ : BufTy).Contents (Elt F)),
    reshape main_v19 main_v20 rfl shapeCasts_S1x32x2_S32x1x2,
    reshape main_v5 main_v21 rfl shapeCasts_S1x32_S32x1,
    reshape main_v16 main_v22 rfl shapeCasts_S1x32_S32x1x1,
    reshape main_v15 main_v23 rfl shapeCasts_S1x32_S32x1x1,
    reshape main_v13 main_v24 rfl shapeCasts_S1x32_S32x1x1,
    unary main_arg1 main_v25 (broadcastInDim S1x1024x1024x1x2 ![0, 1, 2, 4] bcast_S1x1024x1024x2_S1x1024x1024x1x2_0_1_2_4 : (⟨S1x1024x1024x2, .f32⟩ : BufTy).Contents (Elt F) → (⟨S1x1024x1024x1x2, .f32⟩ : BufTy).Contents (Elt F)),
    unary main_v20 main_v26 (broadcastInDim S32x1x1x1x2 ![0, 3, 4] bcast_S32x1x2_S32x1x1x1x2_0_3_4 : (⟨S32x1x2, .f32⟩ : BufTy).Contents (Elt F) → (⟨S32x1x1x1x2, .f32⟩ : BufTy).Contents (Elt F)),
    unary main_v22 main_v27 (broadcastInDim S32x1x1x1x1 ![0, 3, 4] bcast_S32x1x1_S32x1x1x1x1_0_3_4 : (⟨S32x1x1, .f32⟩ : BufTy).Contents (Elt F) → (⟨S32x1x1x1x1, .f32⟩ : BufTy).Contents (Elt F)),
    unary main_v23 main_v28 (broadcastInDim S32x1x1x1x1 ![0, 3, 4] bcast_S32x1x1_S32x1x1x1x1_0_3_4 : (⟨S32x1x1, .f32⟩ : BufTy).Contents (Elt F) → (⟨S32x1x1x1x1, .f32⟩ : BufTy).Contents (Elt F)),
    unary main_v21 main_v29 (broadcastInDim S32x1x1 ![0, 1] bcast_S32x1_S32x1x1_0_1 : (⟨S32x1, .f32⟩ : BufTy).Contents (Elt F) → (⟨S32x1x1, .f32⟩ : BufTy).Contents (Elt F)),
    unary main_v29 main_v30 (broadcastInDim S32x1x1x1x1 ![0, 3, 4] bcast_S32x1x1_S32x1x1x1x1_0_3_4 : (⟨S32x1x1, .f32⟩ : BufTy).Contents (Elt F) → (⟨S32x1x1x1x1, .f32⟩ : BufTy).Contents (Elt F)),
    unary main_v24 main_v31 (broadcastInDim S32x1x1x1x1 ![0, 3, 4] bcast_S32x1x1_S32x1x1x1x1_0_3_4 : (⟨S32x1x1, .f32⟩ : BufTy).Contents (Elt F) → (⟨S32x1x1x1x1, .f32⟩ : BufTy).Contents (Elt F)),
    unary main_v25 main_v32 (broadcastInDim S32x1024x1024x1x2 ![0, 1, 2, 3, 4] bcast_S1x1024x1024x1x2_S32x1024x1024x1x2_0_1_2_3_4 : (⟨S1x1024x1024x1x2, .f32⟩ : BufTy).Contents (Elt F) → (⟨S32x1024x1024x1x2, .f32⟩ : BufTy).Contents (Elt F)),
    unary main_v26 main_v33 (broadcastInDim S32x1024x1024x1x2 ![0, 1, 2, 3, 4] bcast_S32x1x1x1x2_S32x1024x1024x1x2_0_1_2_3_4 : (⟨S32x1x1x1x2, .f32⟩ : BufTy).Contents (Elt F) → (⟨S32x1024x1024x1x2, .f32⟩ : BufTy).Contents (Elt F)),
    binary main_v32 main_v33 main_v34 (subf : (⟨S32x1024x1024x1x2, .f32⟩ : BufTy).Contents (Elt F) → (⟨S32x1024x1024x1x2, .f32⟩ : BufTy).Contents (Elt F) → (⟨S32x1024x1024x1x2, .f32⟩ : BufTy).Contents (Elt F)),
    binary main_v34 main_v34 main_v35 (mulf : (⟨S32x1024x1024x1x2, .f32⟩ : BufTy).Contents (Elt F) → (⟨S32x1024x1024x1x2, .f32⟩ : BufTy).Contents (Elt F) → (⟨S32x1024x1024x1x2, .f32⟩ : BufTy).Contents (Elt F)),
    nullary main_cst (constant S_ .f32 0x00000000#32),
    binary main_v35 main_cst main_v36 ((fun x v => Host.reduceAdd x v reducesTo_S32x1024x1024x1x2_S32x1024x1024x1_d4 h_S_) : (⟨S32x1024x1024x1x2, .f32⟩ : BufTy).Contents (Elt F) → (⟨S_, .f32⟩ : BufTy).Contents (Elt F) → (⟨S32x1024x1024x1, .f32⟩ : BufTy).Contents (Elt F)),
    unary main_v36 main_v37 (broadcastInDim S32x1024x1024x1x1 ![0, 1, 2, 3] bcast_S32x1024x1024x1_S32x1024x1024x1x1_0_1_2_3 : (⟨S32x1024x1024x1, .f32⟩ : BufTy).Contents (Elt F) → (⟨S32x1024x1024x1x1, .f32⟩ : BufTy).Contents (Elt F)),
    unary main_v37 main_v38 (Host.sqrt : (⟨S32x1024x1024x1x1, .f32⟩ : BufTy).Contents (Elt F) → (⟨S32x1024x1024x1x1, .f32⟩ : BufTy).Contents (Elt F)),
    unary main_v31 main_v39 (broadcastInDim S32x1024x1024x1x1 ![0, 1, 2, 3, 4] bcast_S32x1x1x1x1_S32x1024x1024x1x1_0_1_2_3_4 : (⟨S32x1x1x1x1, .f32⟩ : BufTy).Contents (Elt F) → (⟨S32x1024x1024x1x1, .f32⟩ : BufTy).Contents (Elt F)),
    binary main_v38 main_v39 main_v40 (subf : (⟨S32x1024x1024x1x1, .f32⟩ : BufTy).Contents (Elt F) → (⟨S32x1024x1024x1x1, .f32⟩ : BufTy).Contents (Elt F) → (⟨S32x1024x1024x1x1, .f32⟩ : BufTy).Contents (Elt F)),
    nullary main_cst_0 (constant S_ .f32 0x00000000#32),
    unary main_cst_0 main_v41 (broadcastInDim S32x1024x1024x1x1 ![] bcast_S_S32x1024x1024x1x1 : (⟨S_, .f32⟩ : BufTy).Contents (Elt F) → (⟨S32x1024x1024x1x1, .f32⟩ : BufTy).Contents (Elt F)),
    binary main_v40 main_v41 main_v42 (cmpf .oge : (⟨S32x1024x1024x1x1, .f32⟩ : BufTy).Contents (Elt F) → (⟨S32x1024x1024x1x1, .f32⟩ : BufTy).Contents (Elt F) → (⟨S32x1024x1024x1x1, .i1⟩ : BufTy).Contents (Elt F)),
    unary main_v42 main_v43 (uitofp .f32 : (⟨S32x1024x1024x1x1, .i1⟩ : BufTy).Contents (Elt F) → (⟨S32x1024x1024x1x1, .f32⟩ : BufTy).Contents (Elt F)),
    binary main_v40 main_v40 main_v44 (mulf : (⟨S32x1024x1024x1x1, .f32⟩ : BufTy).Contents (Elt F) → (⟨S32x1024x1024x1x1, .f32⟩ : BufTy).Contents (Elt F) → (⟨S32x1024x1024x1x1, .f32⟩ : BufTy).Contents (Elt F)),
    unary main_v44 main_v45 (Host.negf : (⟨S32x1024x1024x1x1, .f32⟩ : BufTy).Contents (Elt F) → (⟨S32x1024x1024x1x1, .f32⟩ : BufTy).Contents (Elt F)),
    binary main_v27 main_v27 main_v46 (mulf : (⟨S32x1x1x1x1, .f32⟩ : BufTy).Contents (Elt F) → (⟨S32x1x1x1x1, .f32⟩ : BufTy).Contents (Elt F) → (⟨S32x1x1x1x1, .f32⟩ : BufTy).Contents (Elt F)),
    unary main_v46 main_v47 (broadcastInDim S32x1024x1024x1x1 ![0, 1, 2, 3, 4] bcast_S32x1x1x1x1_S32x1024x1024x1x1_0_1_2_3_4 : (⟨S32x1x1x1x1, .f32⟩ : BufTy).Contents (Elt F) → (⟨S32x1024x1024x1x1, .f32⟩ : BufTy).Contents (Elt F)),
    binary main_v45 main_v47 main_v48 (Host.divf : (⟨S32x1024x1024x1x1, .f32⟩ : BufTy).Contents (Elt F) → (⟨S32x1024x1024x1x1, .f32⟩ : BufTy).Contents (Elt F) → (⟨S32x1024x1024x1x1, .f32⟩ : BufTy).Contents (Elt F)),
    unary main_v48 main_v49 (Host.exp : (⟨S32x1024x1024x1x1, .f32⟩ : BufTy).Contents (Elt F) → (⟨S32x1024x1024x1x1, .f32⟩ : BufTy).Contents (Elt F)),
    binary main_v49 main_v43 main_v50 (mulf : (⟨S32x1024x1024x1x1, .f32⟩ : BufTy).Contents (Elt F) → (⟨S32x1024x1024x1x1, .f32⟩ : BufTy).Contents (Elt F) → (⟨S32x1024x1024x1x1, .f32⟩ : BufTy).Contents (Elt F)),
    unary main_v44 main_v51 (Host.negf : (⟨S32x1024x1024x1x1, .f32⟩ : BufTy).Contents (Elt F) → (⟨S32x1024x1024x1x1, .f32⟩ : BufTy).Contents (Elt F)),
    binary main_v28 main_v28 main_v52 (mulf : (⟨S32x1x1x1x1, .f32⟩ : BufTy).Contents (Elt F) → (⟨S32x1x1x1x1, .f32⟩ : BufTy).Contents (Elt F) → (⟨S32x1x1x1x1, .f32⟩ : BufTy).Contents (Elt F)),
    unary main_v52 main_v53 (broadcastInDim S32x1024x1024x1x1 ![0, 1, 2, 3, 4] bcast_S32x1x1x1x1_S32x1024x1024x1x1_0_1_2_3_4 : (⟨S32x1x1x1x1, .f32⟩ : BufTy).Contents (Elt F) → (⟨S32x1024x1024x1x1, .f32⟩ : BufTy).Contents (Elt F)),
    binary main_v51 main_v53 main_v54 (Host.divf : (⟨S32x1024x1024x1x1, .f32⟩ : BufTy).Contents (Elt F) → (⟨S32x1024x1024x1x1, .f32⟩ : BufTy).Contents (Elt F) → (⟨S32x1024x1024x1x1, .f32⟩ : BufTy).Contents (Elt F)),
    unary main_v54 main_v55 (Host.exp : (⟨S32x1024x1024x1x1, .f32⟩ : BufTy).Contents (Elt F) → (⟨S32x1024x1024x1x1, .f32⟩ : BufTy).Contents (Elt F)),
    nullary main_cst_1 (constant S_ .f32 0x3F800000#32),
    unary main_cst_1 main_v56 (broadcastInDim S32x1024x1024x1x1 ![] bcast_S_S32x1024x1024x1x1 : (⟨S_, .f32⟩ : BufTy).Contents (Elt F) → (⟨S32x1024x1024x1x1, .f32⟩ : BufTy).Contents (Elt F)),
    binary main_v56 main_v43 main_v57 (subf : (⟨S32x1024x1024x1x1, .f32⟩ : BufTy).Contents (Elt F) → (⟨S32x1024x1024x1x1, .f32⟩ : BufTy).Contents (Elt F) → (⟨S32x1024x1024x1x1, .f32⟩ : BufTy).Contents (Elt F)),
    binary main_v55 main_v57 main_v58 (mulf : (⟨S32x1024x1024x1x1, .f32⟩ : BufTy).Contents (Elt F) → (⟨S32x1024x1024x1x1, .f32⟩ : BufTy).Contents (Elt F) → (⟨S32x1024x1024x1x1, .f32⟩ : BufTy).Contents (Elt F)),
    binary main_v50 main_v58 main_v59 (addf : (⟨S32x1024x1024x1x1, .f32⟩ : BufTy).Contents (Elt F) → (⟨S32x1024x1024x1x1, .f32⟩ : BufTy).Contents (Elt F) → (⟨S32x1024x1024x1x1, .f32⟩ : BufTy).Contents (Elt F)),
    binary main_v59 main_v38 main_v60 (Host.divf : (⟨S32x1024x1024x1x1, .f32⟩ : BufTy).Contents (Elt F) → (⟨S32x1024x1024x1x1, .f32⟩ : BufTy).Contents (Elt F) → (⟨S32x1024x1024x1x1, .f32⟩ : BufTy).Contents (Elt F)),
    unary main_v30 main_v61 (broadcastInDim S32x1024x1024x1x1 ![0, 1, 2, 3, 4] bcast_S32x1x1x1x1_S32x1024x1024x1x1_0_1_2_3_4 : (⟨S32x1x1x1x1, .f32⟩ : BufTy).Contents (Elt F) → (⟨S32x1024x1024x1x1, .f32⟩ : BufTy).Contents (Elt F)),
    binary main_v61 main_v60 main_v62 (mulf : (⟨S32x1024x1024x1x1, .f32⟩ : BufTy).Contents (Elt F) → (⟨S32x1024x1024x1x1, .f32⟩ : BufTy).Contents (Elt F) → (⟨S32x1024x1024x1x1, .f32⟩ : BufTy).Contents (Elt F)),
    unary main_v34 main_v63 ((extractStridedSlice S32x1024x1024x1x1 ![0, 0, 0, 0, 0] · slices_S32x1024x1024x1x2_S32x1024x1024x1x1_0_0_0_0_0) : (⟨S32x1024x1024x1x2, .f32⟩ : BufTy).Contents (Elt F) → (⟨S32x1024x1024x1x1, .f32⟩ : BufTy).Contents (Elt F)),
    reshape main_v63 main_v64 rfl shapeCasts_S32x1024x1024x1x1_S32x1024x1024x1,
    unary main_v34 main_v65 ((extractStridedSlice S32x1024x1024x1x1 ![0, 0, 0, 0, 1] · slices_S32x1024x1024x1x2_S32x1024x1024x1x1_0_0_0_0_1) : (⟨S32x1024x1024x1x2, .f32⟩ : BufTy).Contents (Elt F) → (⟨S32x1024x1024x1x1, .f32⟩ : BufTy).Contents (Elt F)),
    reshape main_v65 main_v66 rfl shapeCasts_S32x1024x1024x1x1_S32x1024x1024x1,
    unary main_v64 main_v67 (Host.negf : (⟨S32x1024x1024x1, .f32⟩ : BufTy).Contents (Elt F) → (⟨S32x1024x1024x1, .f32⟩ : BufTy).Contents (Elt F)),
    unary main_v66 main_v68 (broadcastInDim S32x1024x1024x1x1 ![0, 1, 2, 3] bcast_S32x1024x1024x1_S32x1024x1024x1x1_0_1_2_3 : (⟨S32x1024x1024x1, .f32⟩ : BufTy).Contents (Elt F) → (⟨S32x1024x1024x1x1, .f32⟩ : BufTy).Contents (Elt F)),
    unary main_v67 main_v69 (broadcastInDim S32x1024x1024x1x1 ![0, 1, 2, 3] bcast_S32x1024x1024x1_S32x1024x1024x1x1_0_1_2_3 : (⟨S32x1024x1024x1, .f32⟩ : BufTy).Contents (Elt F) → (⟨S32x1024x1024x1x1, .f32⟩ : BufTy).Contents (Elt F)),
    binary main_v68 main_v69 main_v70 ((fun a b => concatenate S32x1024x1024x1x2 4 [⟨S32x1024x1024x1x1, a⟩, ⟨S32x1024x1024x1x1, b⟩] concatenates_S32x1024x1024x1x1_S32x1024x1024x1x1_S32x1024x1024x1x2_d4) : (⟨S32x1024x1024x1x1, .f32⟩ : BufTy).Contents (Elt F) → (⟨S32x1024x1024x1x1, .f32⟩ : BufTy).Contents (Elt F) → (⟨S32x1024x1024x1x2, .f32⟩ : BufTy).Contents (Elt F)),
    unary main_v62 main_v71 (broadcastInDim S32x1024x1024x1x2 ![0, 1, 2, 3, 4] bcast_S32x1024x1024x1x1_S32x1024x1024x1x2_0_1_2_3_4 : (⟨S32x1024x1024x1x1, .f32⟩ : BufTy).Contents (Elt F) → (⟨S32x1024x1024x1x2, .f32⟩ : BufTy).Contents (Elt F)),
    binary main_v71 main_v70 main_v72 (mulf : (⟨S32x1024x1024x1x2, .f32⟩ : BufTy).Contents (Elt F) → (⟨S32x1024x1024x1x2, .f32⟩ : BufTy).Contents (Elt F) → (⟨S32x1024x1024x1x2, .f32⟩ : BufTy).Contents (Elt F)),
    nullary main_cst_2 (constant S_ .f32 0x00000000#32),
    binary main_v72 main_cst_2 main_v73 ((fun x v => Host.reduceAdd x v reducesTo_S32x1024x1024x1x2_S32x1024x1024x2_d3 h_S_) : (⟨S32x1024x1024x1x2, .f32⟩ : BufTy).Contents (Elt F) → (⟨S_, .f32⟩ : BufTy).Contents (Elt F) → (⟨S32x1024x1024x2, .f32⟩ : BufTy).Contents (Elt F)) ]

/-- Operations 1 … 16 of @main. -/
abbrev ops1 : List (HloOp τ sig (Elt F)) :=
  [ unary main_arg0 main_v0 ((extractStridedSlice S1x32x1 ![0, 0, 0] · slices_S1x32x8_S1x32x1_0_0_0) : (⟨S1x32x8, .f32⟩ : BufTy).Contents (Elt F) → (⟨S1x32x1, .f32⟩ : BufTy).Contents (Elt F)),
    reshape main_v0 main_v1 rfl shapeCasts_S1x32x1_S1x32,
    unary main_arg0 main_v2 ((extractStridedSlice S1x32x1 ![0, 0, 1] · slices_S1x32x8_S1x32x1_0_0_1) : (⟨S1x32x8, .f32⟩ : BufTy).Contents (Elt F) → (⟨S1x32x1, .f32⟩ : BufTy).Contents (Elt F)),
    reshape main_v2 main_v3 rfl shapeCasts_S1x32x1_S1x32,
    unary main_arg0 main_v4 ((extractStridedSlice S1x32x1 ![0, 0, 2] · slices_S1x32x8_S1x32x1_0_0_2) : (⟨S1x32x8, .f32⟩ : BufTy).Contents (Elt F) → (⟨S1x32x1, .f32⟩ : BufTy).Contents (Elt F)),
    reshape main_v4 main_v5 rfl shapeCasts_S1x32x1_S1x32,
    unary main_arg0 main_v6 ((extractStridedSlice S1x32x1 ![0, 0, 3] · slices_S1x32x8_S1x32x1_0_0_3) : (⟨S1x32x8, .f32⟩ : BufTy).Contents (Elt F) → (⟨S1x32x1, .f32⟩ : BufTy).Contents (Elt F)),
    reshape main_v6 main_v7 rfl shapeCasts_S1x32x1_S1x32,
    unary main_arg0 main_v8 ((extractStridedSlice S1x32x1 ![0, 0, 4] · slices_S1x32x8_S1x32x1_0_0_4) : (⟨S1x32x8, .f32⟩ : BufTy).Contents (Elt F) → (⟨S1x32x1, .f32⟩ : BufTy).Contents (Elt F)),
    reshape main_v8 main_v9 rfl shapeCasts_S1x32x1_S1x32,
    unary main_arg0 main_v10 ((extractStridedSlice S1x32x1 ![0, 0, 5] · slices_S1x32x8_S1x32x1_0_0_5) : (⟨S1x32x8, .f32⟩ : BufTy).Contents (Elt F) → (⟨S1x32x1, .f32⟩ : BufTy).Contents (Elt F)),
    reshape main_v10 main_v11 rfl shapeCasts_S1x32x1_S1x32,
    unary main_arg0 main_v12 ((extractStridedSlice S1x32x1 ![0, 0, 6] · slices_S1x32x8_S1x32x1_0_0_6) : (⟨S1x32x8, .f32⟩ : BufTy).Contents (Elt F) → (⟨S1x32x1, .f32⟩ : BufTy).Contents (Elt F)),
    reshape main_v12 main_v13 rfl shapeCasts_S1x32x1_S1x32,
    unary main_arg0 main_v14 ((extractStridedSlice S1x32x1 ![0, 0, 7] · slices_S1x32x8_S1x32x1_0_0_7) : (⟨S1x32x8, .f32⟩ : BufTy).Contents (Elt F) → (⟨S1x32x1, .f32⟩ : BufTy).Contents (Elt F)),
    reshape main_v14 main_v15 rfl shapeCasts_S1x32x1_S1x32 ]

/-- Operations 17 … 32 of @main. -/
abbrev ops2 : List (HloOp τ sig (Elt F)) :=
  [ binary main_v7 main_v15 main_v16 (subf : (⟨S1x32, .f32⟩ : BufTy).Contents (Elt F) → (⟨S1x32, .f32⟩ : BufTy).Contents (Elt F) → (⟨S1x32, .f32⟩ : BufTy).Contents (Elt F)),
    unary main_v1 main_v17 (broadcastInDim S1x32x1 ![0, 1] bcast_S1x32_S1x32x1_0_1 : (⟨S1x32, .f32⟩ : BufTy).Contents (Elt F) → (⟨S1x32x1, .f32⟩ : BufTy).Contents (Elt F)),
    unary main_v3 main_v18 (broadcastInDim S1x32x1 ![0, 1] bcast_S1x32_S1x32x1_0_1 : (⟨S1x32, .f32⟩ : BufTy).Contents (Elt F) → (⟨S1x32x1, .f32⟩ : BufTy).Contents (Elt F)),
    binary main_v17 main_v18 main_v19 ((fun a b => concatenate S1x32x2 2 [⟨S1x32x1, a⟩, ⟨S1x32x1, b⟩] concatenates_S1x32x1_S1x32x1_S1x32x2_d2) : (⟨S1x32x1, .f32⟩ : BufTy).Contents (Elt F) → (⟨S1x32x1, .f32⟩ : BufTy).Contents (Elt F) → (⟨S1x32x2, .f32⟩ : BufTy).Contents (Elt F)),
    reshape main_v19 main_v20 rfl shapeCasts_S1x32x2_S32x1x2,
    reshape main_v5 main_v21 rfl shapeCasts_S1x32_S32x1,
    reshape main_v16 main_v22 rfl shapeCasts_S1x32_S32x1x1,
    reshape main_v15 main_v23 rfl shapeCasts_S1x32_S32x1x1,
    reshape main_v13 main_v24 rfl shapeCasts_S1x32_S32x1x1,
    unary main_arg1 main_v25 (broadcastInDim S1x1024x1024x1x2 ![0, 1, 2, 4] bcast_S1x1024x1024x2_S1x1024x1024x1x2_0_1_2_4 : (⟨S1x1024x1024x2, .f32⟩ : BufTy).Contents (Elt F) → (⟨S1x1024x1024x1x2, .f32⟩ : BufTy).Contents (Elt F)),
    unary main_v20 main_v26 (broadcastInDim S32x1x1x1x2 ![0, 3, 4] bcast_S32x1x2_S32x1x1x1x2_0_3_4 : (⟨S32x1x2, .f32⟩ : BufTy).Contents (Elt F) → (⟨S32x1x1x1x2, .f32⟩ : BufTy).Contents (Elt F)),
    unary main_v22 main_v27 (broadcastInDim S32x1x1x1x1 ![0, 3, 4] bcast_S32x1x1_S32x1x1x1x1_0_3_4 : (⟨S32x1x1, .f32⟩ : BufTy).Contents (Elt F) → (⟨S32x1x1x1x1, .f32⟩ : BufTy).Contents (Elt F)),
    unary main_v23 main_v28 (broadcastInDim S32x1x1x1x1 ![0, 3, 4] bcast_S32x1x1_S32x1x1x1x1_0_3_4 : (⟨S32x1x1, .f32⟩ : BufTy).Contents (Elt F) → (⟨S32x1x1x1x1, .f32⟩ : BufTy).Contents (Elt F)),
    unary main_v21 main_v29 (broadcastInDim S32x1x1 ![0, 1] bcast_S32x1_S32x1x1_0_1 : (⟨S32x1, .f32⟩ : BufTy).Contents (Elt F) → (⟨S32x1x1, .f32⟩ : BufTy).Contents (Elt F)),
    unary main_v29 main_v30 (broadcastInDim S32x1x1x1x1 ![0, 3, 4] bcast_S32x1x1_S32x1x1x1x1_0_3_4 : (⟨S32x1x1, .f32⟩ : BufTy).Contents (Elt F) → (⟨S32x1x1x1x1, .f32⟩ : BufTy).Contents (Elt F)),
    unary main_v24 main_v31 (broadcastInDim S32x1x1x1x1 ![0, 3, 4] bcast_S32x1x1_S32x1x1x1x1_0_3_4 : (⟨S32x1x1, .f32⟩ : BufTy).Contents (Elt F) → (⟨S32x1x1x1x1, .f32⟩ : BufTy).Contents (Elt F)) ]

/-- Operations 33 … 40 of @main. -/
abbrev ops3 : List (HloOp τ sig (Elt F)) :=
  [ unary main_v25 main_v32 (broadcastInDim S32x1024x1024x1x2 ![0, 1, 2, 3, 4] bcast_S1x1024x1024x1x2_S32x1024x1024x1x2_0_1_2_3_4 : (⟨S1x1024x1024x1x2, .f32⟩ : BufTy).Contents (Elt F) → (⟨S32x1024x1024x1x2, .f32⟩ : BufTy).Contents (Elt F)),
    unary main_v26 main_v33 (broadcastInDim S32x1024x1024x1x2 ![0, 1, 2, 3, 4] bcast_S32x1x1x1x2_S32x1024x1024x1x2_0_1_2_3_4 : (⟨S32x1x1x1x2, .f32⟩ : BufTy).Contents (Elt F) → (⟨S32x1024x1024x1x2, .f32⟩ : BufTy).Contents (Elt F)),
    binary main_v32 main_v33 main_v34 (subf : (⟨S32x1024x1024x1x2, .f32⟩ : BufTy).Contents (Elt F) → (⟨S32x1024x1024x1x2, .f32⟩ : BufTy).Contents (Elt F) → (⟨S32x1024x1024x1x2, .f32⟩ : BufTy).Contents (Elt F)),
    binary main_v34 main_v34 main_v35 (mulf : (⟨S32x1024x1024x1x2, .f32⟩ : BufTy).Contents (Elt F) → (⟨S32x1024x1024x1x2, .f32⟩ : BufTy).Contents (Elt F) → (⟨S32x1024x1024x1x2, .f32⟩ : BufTy).Contents (Elt F)),
    nullary main_cst (constant S_ .f32 0x00000000#32),
    binary main_v35 main_cst main_v36 ((fun x v => Host.reduceAdd x v reducesTo_S32x1024x1024x1x2_S32x1024x1024x1_d4 h_S_) : (⟨S32x1024x1024x1x2, .f32⟩ : BufTy).Contents (Elt F) → (⟨S_, .f32⟩ : BufTy).Contents (Elt F) → (⟨S32x1024x1024x1, .f32⟩ : BufTy).Contents (Elt F)),
    unary main_v36 main_v37 (broadcastInDim S32x1024x1024x1x1 ![0, 1, 2, 3] bcast_S32x1024x1024x1_S32x1024x1024x1x1_0_1_2_3 : (⟨S32x1024x1024x1, .f32⟩ : BufTy).Contents (Elt F) → (⟨S32x1024x1024x1x1, .f32⟩ : BufTy).Contents (Elt F)),
    unary main_v37 main_v38 (Host.sqrt : (⟨S32x1024x1024x1x1, .f32⟩ : BufTy).Contents (Elt F) → (⟨S32x1024x1024x1x1, .f32⟩ : BufTy).Contents (Elt F)) ]

/-- Operations 41 … 66 of @main. -/
abbrev ops4 : List (HloOp τ sig (Elt F)) :=
  [ unary main_v31 main_v39 (broadcastInDim S32x1024x1024x1x1 ![0, 1, 2, 3, 4] bcast_S32x1x1x1x1_S32x1024x1024x1x1_0_1_2_3_4 : (⟨S32x1x1x1x1, .f32⟩ : BufTy).Contents (Elt F) → (⟨S32x1024x1024x1x1, .f32⟩ : BufTy).Contents (Elt F)),
    binary main_v38 main_v39 main_v40 (subf : (⟨S32x1024x1024x1x1, .f32⟩ : BufTy).Contents (Elt F) → (⟨S32x1024x1024x1x1, .f32⟩ : BufTy).Contents (Elt F) → (⟨S32x1024x1024x1x1, .f32⟩ : BufTy).Contents (Elt F)),
    nullary main_cst_0 (constant S_ .f32 0x00000000#32),
    unary main_cst_0 main_v41 (broadcastInDim S32x1024x1024x1x1 ![] bcast_S_S32x1024x1024x1x1 : (⟨S_, .f32⟩ : BufTy).Contents (Elt F) → (⟨S32x1024x1024x1x1, .f32⟩ : BufTy).Contents (Elt F)),
    binary main_v40 main_v41 main_v42 (cmpf .oge : (⟨S32x1024x1024x1x1, .f32⟩ : BufTy).Contents (Elt F) → (⟨S32x1024x1024x1x1, .f32⟩ : BufTy).Contents (Elt F) → (⟨S32x1024x1024x1x1, .i1⟩ : BufTy).Contents (Elt F)),
    unary main_v42 main_v43 (uitofp .f32 : (⟨S32x1024x1024x1x1, .i1⟩ : BufTy).Contents (Elt F) → (⟨S32x1024x1024x1x1, .f32⟩ : BufTy).Contents (Elt F)),
    binary main_v40 main_v40 main_v44 (mulf : (⟨S32x1024x1024x1x1, .f32⟩ : BufTy).Contents (Elt F) → (⟨S32x1024x1024x1x1, .f32⟩ : BufTy).Contents (Elt F) → (⟨S32x1024x1024x1x1, .f32⟩ : BufTy).Contents (Elt F)),
    unary main_v44 main_v45 (Host.negf : (⟨S32x1024x1024x1x1, .f32⟩ : BufTy).Contents (Elt F) → (⟨S32x1024x1024x1x1, .f32⟩ : BufTy).Contents (Elt F)),
    binary main_v27 main_v27 main_v46 (mulf : (⟨S32x1x1x1x1, .f32⟩ : BufTy).Contents (Elt F) → (⟨S32x1x1x1x1, .f32⟩ : BufTy).Contents (Elt F) → (⟨S32x1x1x1x1, .f32⟩ : BufTy).Contents (Elt F)),
    unary main_v46 main_v47 (broadcastInDim S32x1024x1024x1x1 ![0, 1, 2, 3, 4] bcast_S32x1x1x1x1_S32x1024x1024x1x1_0_1_2_3_4 : (⟨S32x1x1x1x1, .f32⟩ : BufTy).Contents (Elt F) → (⟨S32x1024x1024x1x1, .f32⟩ : BufTy).Contents (Elt F)),
    binary main_v45 main_v47 main_v48 (Host.divf : (⟨S32x1024x1024x1x1, .f32⟩ : BufTy).Contents (Elt F) → (⟨S32x1024x1024x1x1, .f32⟩ : BufTy).Contents (Elt F) → (⟨S32x1024x1024x1x1, .f32⟩ : BufTy).Contents (Elt F)),
    unary main_v48 main_v49 (Host.exp : (⟨S32x1024x1024x1x1, .f32⟩ : BufTy).Contents (Elt F) → (⟨S32x1024x1024x1x1, .f32⟩ : BufTy).Contents (Elt F)),
    binary main_v49 main_v43 main_v50 (mulf : (⟨S32x1024x1024x1x1, .f32⟩ : BufTy).Contents (Elt F) → (⟨S32x1024x1024x1x1, .f32⟩ : BufTy).Contents (Elt F) → (⟨S32x1024x1024x1x1, .f32⟩ : BufTy).Contents (Elt F)),
    unary main_v44 main_v51 (Host.negf : (⟨S32x1024x1024x1x1, .f32⟩ : BufTy).Contents (Elt F) → (⟨S32x1024x1024x1x1, .f32⟩ : BufTy).Contents (Elt F)),
    binary main_v28 main_v28 main_v52 (mulf : (⟨S32x1x1x1x1, .f32⟩ : BufTy).Contents (Elt F) → (⟨S32x1x1x1x1, .f32⟩ : BufTy).Contents (Elt F) → (⟨S32x1x1x1x1, .f32⟩ : BufTy).Contents (Elt F)),
    unary main_v52 main_v53 (broadcastInDim S32x1024x1024x1x1 ![0, 1, 2, 3, 4] bcast_S32x1x1x1x1_S32x1024x1024x1x1_0_1_2_3_4 : (⟨S32x1x1x1x1, .f32⟩ : BufTy).Contents (Elt F) → (⟨S32x1024x1024x1x1, .f32⟩ : BufTy).Contents (Elt F)),
    binary main_v51 main_v53 main_v54 (Host.divf : (⟨S32x1024x1024x1x1, .f32⟩ : BufTy).Contents (Elt F) → (⟨S32x1024x1024x1x1, .f32⟩ : BufTy).Contents (Elt F) → (⟨S32x1024x1024x1x1, .f32⟩ : BufTy).Contents (Elt F)),
    unary main_v54 main_v55 (Host.exp : (⟨S32x1024x1024x1x1, .f32⟩ : BufTy).Contents (Elt F) → (⟨S32x1024x1024x1x1, .f32⟩ : BufTy).Contents (Elt F)),
    nullary main_cst_1 (constant S_ .f32 0x3F800000#32),
    unary main_cst_1 main_v56 (broadcastInDim S32x1024x1024x1x1 ![] bcast_S_S32x1024x1024x1x1 : (⟨S_, .f32⟩ : BufTy).Contents (Elt F) → (⟨S32x1024x1024x1x1, .f32⟩ : BufTy).Contents (Elt F)),
    binary main_v56 main_v43 main_v57 (subf : (⟨S32x1024x1024x1x1, .f32⟩ : BufTy).Contents (Elt F) → (⟨S32x1024x1024x1x1, .f32⟩ : BufTy).Contents (Elt F) → (⟨S32x1024x1024x1x1, .f32⟩ : BufTy).Contents (Elt F)),
    binary main_v55 main_v57 main_v58 (mulf : (⟨S32x1024x1024x1x1, .f32⟩ : BufTy).Contents (Elt F) → (⟨S32x1024x1024x1x1, .f32⟩ : BufTy).Contents (Elt F) → (⟨S32x1024x1024x1x1, .f32⟩ : BufTy).Contents (Elt F)),
    binary main_v50 main_v58 main_v59 (addf : (⟨S32x1024x1024x1x1, .f32⟩ : BufTy).Contents (Elt F) → (⟨S32x1024x1024x1x1, .f32⟩ : BufTy).Contents (Elt F) → (⟨S32x1024x1024x1x1, .f32⟩ : BufTy).Contents (Elt F)),
    binary main_v59 main_v38 main_v60 (Host.divf : (⟨S32x1024x1024x1x1, .f32⟩ : BufTy).Contents (Elt F) → (⟨S32x1024x1024x1x1, .f32⟩ : BufTy).Contents (Elt F) → (⟨S32x1024x1024x1x1, .f32⟩ : BufTy).Contents (Elt F)),
    unary main_v30 main_v61 (broadcastInDim S32x1024x1024x1x1 ![0, 1, 2, 3, 4] bcast_S32x1x1x1x1_S32x1024x1024x1x1_0_1_2_3_4 : (⟨S32x1x1x1x1, .f32⟩ : BufTy).Contents (Elt F) → (⟨S32x1024x1024x1x1, .f32⟩ : BufTy).Contents (Elt F)),
    binary main_v61 main_v60 main_v62 (mulf : (⟨S32x1024x1024x1x1, .f32⟩ : BufTy).Contents (Elt F) → (⟨S32x1024x1024x1x1, .f32⟩ : BufTy).Contents (Elt F) → (⟨S32x1024x1024x1x1, .f32⟩ : BufTy).Contents (Elt F)) ]

/-- Operations 67 … 78 of @main. -/
abbrev ops5 : List (HloOp τ sig (Elt F)) :=
  [ unary main_v34 main_v63 ((extractStridedSlice S32x1024x1024x1x1 ![0, 0, 0, 0, 0] · slices_S32x1024x1024x1x2_S32x1024x1024x1x1_0_0_0_0_0) : (⟨S32x1024x1024x1x2, .f32⟩ : BufTy).Contents (Elt F) → (⟨S32x1024x1024x1x1, .f32⟩ : BufTy).Contents (Elt F)),
    reshape main_v63 main_v64 rfl shapeCasts_S32x1024x1024x1x1_S32x1024x1024x1,
    unary main_v34 main_v65 ((extractStridedSlice S32x1024x1024x1x1 ![0, 0, 0, 0, 1] · slices_S32x1024x1024x1x2_S32x1024x1024x1x1_0_0_0_0_1) : (⟨S32x1024x1024x1x2, .f32⟩ : BufTy).Contents (Elt F) → (⟨S32x1024x1024x1x1, .f32⟩ : BufTy).Contents (Elt F)),
    reshape main_v65 main_v66 rfl shapeCasts_S32x1024x1024x1x1_S32x1024x1024x1,
    unary main_v64 main_v67 (Host.negf : (⟨S32x1024x1024x1, .f32⟩ : BufTy).Contents (Elt F) → (⟨S32x1024x1024x1, .f32⟩ : BufTy).Contents (Elt F)),
    unary main_v66 main_v68 (broadcastInDim S32x1024x1024x1x1 ![0, 1, 2, 3] bcast_S32x1024x1024x1_S32x1024x1024x1x1_0_1_2_3 : (⟨S32x1024x1024x1, .f32⟩ : BufTy).Contents (Elt F) → (⟨S32x1024x1024x1x1, .f32⟩ : BufTy).Contents (Elt F)),
    unary main_v67 main_v69 (broadcastInDim S32x1024x1024x1x1 ![0, 1, 2, 3] bcast_S32x1024x1024x1_S32x1024x1024x1x1_0_1_2_3 : (⟨S32x1024x1024x1, .f32⟩ : BufTy).Contents (Elt F) → (⟨S32x1024x1024x1x1, .f32⟩ : BufTy).Contents (Elt F)),
    binary main_v68 main_v69 main_v70 ((fun a b => concatenate S32x1024x1024x1x2 4 [⟨S32x1024x1024x1x1, a⟩, ⟨S32x1024x1024x1x1, b⟩] concatenates_S32x1024x1024x1x1_S32x1024x1024x1x1_S32x1024x1024x1x2_d4) : (⟨S32x1024x1024x1x1, .f32⟩ : BufTy).Contents (Elt F) → (⟨S32x1024x1024x1x1, .f32⟩ : BufTy).Contents (Elt F) → (⟨S32x1024x1024x1x2, .f32⟩ : BufTy).Contents (Elt F)),
    unary main_v62 main_v71 (broadcastInDim S32x1024x1024x1x2 ![0, 1, 2, 3, 4] bcast_S32x1024x1024x1x1_S32x1024x1024x1x2_0_1_2_3_4 : (⟨S32x1024x1024x1x1, .f32⟩ : BufTy).Contents (Elt F) → (⟨S32x1024x1024x1x2, .f32⟩ : BufTy).Contents (Elt F)),
    binary main_v71 main_v70 main_v72 (mulf : (⟨S32x1024x1024x1x2, .f32⟩ : BufTy).Contents (Elt F) → (⟨S32x1024x1024x1x2, .f32⟩ : BufTy).Contents (Elt F) → (⟨S32x1024x1024x1x2, .f32⟩ : BufTy).Contents (Elt F)),
    nullary main_cst_2 (constant S_ .f32 0x00000000#32),
    binary main_v72 main_cst_2 main_v73 ((fun x v => Host.reduceAdd x v reducesTo_S32x1024x1024x1x2_S32x1024x1024x2_d3 h_S_) : (⟨S32x1024x1024x1x2, .f32⟩ : BufTy).Contents (Elt F) → (⟨S_, .f32⟩ : BufTy).Contents (Elt F) → (⟨S32x1024x1024x2, .f32⟩ : BufTy).Contents (Elt F)) ]

/-- The five stretches are the whole line. -/
theorem ops_split : (ops : List (HloOp τ sig (Elt F))) = ops1 ++ (ops2 ++ (ops3 ++ (ops4 ++ ops5))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., reshape_bufs_sub .., reshape_bufs_sub .., reshape_bufs_sub .., reshape_bufs_sub .., reshape_bufs_sub .., unary_bufs_sub .., unary_bufs_sub .., unary_bufs_sub .., unary_bufs_sub .., unary_bufs_sub .., unary_bufs_sub .., unary_bufs_sub .., unary_bufs_sub .., unary_bufs_sub .., binary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., nullary_bufs_sub .., unary_bufs_sub .., binary_bufs_sub .., binary_bufs_sub .., binary_bufs_sub .., binary_bufs_sub .., unary_bufs_sub .., binary_bufs_sub .., unary_bufs_sub .., reshape_bufs_sub .., unary_bufs_sub .., reshape_bufs_sub .., unary_bufs_sub .., unary_bufs_sub .., unary_bufs_sub .., binary_bufs_sub .., unary_bufs_sub .., binary_bufs_sub .., nullary_bufs_sub .., binary_bufs_sub ..⟩

/-- Operations run one stretch after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The stretches, over any valuation -/

section Stretches

variable (V : Valuation τ sig (Elt Ideal))

/-! ### The features unbound -/
theorem s1_v1 : after ops1 V (Proc.devRef .tc main_v1) = featVec 0 slices_S1x32x8_S1x32x1_0_0_0 (V (Proc.devRef .tc main_arg0)) := by after_results <;> rfl
theorem s1_v3 : after ops1 V (Proc.devRef .tc main_v3) = featVec 1 slices_S1x32x8_S1x32x1_0_0_1 (V (Proc.devRef .tc main_arg0)) := by after_results <;> rfl
theorem s1_v5 : after ops1 V (Proc.devRef .tc main_v5) = featVec 2 slices_S1x32x8_S1x32x1_0_0_2 (V (Proc.devRef .tc main_arg0)) := by after_results <;> rfl
theorem s1_v7 : after ops1 V (Proc.devRef .tc main_v7) = featVec 3 slices_S1x32x8_S1x32x1_0_0_3 (V (Proc.devRef .tc main_arg0)) := by after_results <;> rfl
theorem s1_v13 : after ops1 V (Proc.devRef .tc main_v13) = featVec 6 slices_S1x32x8_S1x32x1_0_0_6 (V (Proc.devRef .tc main_arg0)) := by after_results <;> rfl
theorem s1_v15 : after ops1 V (Proc.devRef .tc main_v15) = featVec 7 slices_S1x32x8_S1x32x1_0_0_7 (V (Proc.devRef .tc main_arg0)) := by after_results <;> rfl
theorem s1_arg1 : after ops1 V (Proc.devRef .tc main_arg1) = V (Proc.devRef .tc main_arg1) := by after_results <;> rfl

/-! ### The columns and the points laid out -/
theorem s2_v25 : after ops2 V (Proc.devRef .tc main_v25) = pts5 (V (Proc.devRef .tc main_arg1)) := by after_results <;> rfl
theorem s2_v26 : after ops2 V (Proc.devRef .tc main_v26) = locArr (V (Proc.devRef .tc main_v1)) (V (Proc.devRef .tc main_v3)) := by after_results <;> rfl
theorem s2_v27 : after ops2 V (Proc.devRef .tc main_v27) = col5 (subf (V (Proc.devRef .tc main_v7)) (V (Proc.devRef .tc main_v15))) := by after_results <;> rfl
theorem s2_v28 : after ops2 V (Proc.devRef .tc main_v28) = col5 (V (Proc.devRef .tc main_v15)) := by after_results <;> rfl
theorem s2_v30 : after ops2 V (Proc.devRef .tc main_v30) = tau5 (V (Proc.devRef .tc main_v5)) := by after_results <;> rfl
theorem s2_v31 : after ops2 V (Proc.devRef .tc main_v31) = col5 (V (Proc.devRef .tc main_v13)) := by after_results <;> rfl

/-! ### The offsets and the distances -/
theorem s3_v34 : after ops3 V (Proc.devRef .tc main_v34) = offsets (V (Proc.devRef .tc main_v25)) (V (Proc.devRef .tc main_v26)) := by after_results <;> rfl
theorem s3_v38 : after ops3 V (Proc.devRef .tc main_v38) = distArr (offsets (V (Proc.devRef .tc main_v25)) (V (Proc.devRef .tc main_v26))) := by after_results <;> rfl
theorem s3_v27 : after ops3 V (Proc.devRef .tc main_v27) = V (Proc.devRef .tc main_v27) := by after_results <;> rfl
theorem s3_v28 : after ops3 V (Proc.devRef .tc main_v28) = V (Proc.devRef .tc main_v28) := by after_results <;> rfl
theorem s3_v30 : after ops3 V (Proc.devRef .tc main_v30) = V (Proc.devRef .tc main_v30) := by after_results <;> rfl
theorem s3_v31 : after ops3 V (Proc.devRef .tc main_v31) = V (Proc.devRef .tc main_v31) := by after_results <;> rfl

/-! ### The strengths -/
set_option maxHeartbeats 2000000 in
theorem s4_v62 : after ops4 V (Proc.devRef .tc main_v62)
    = strengthArr (V (Proc.devRef .tc main_v38)) (V (Proc.devRef .tc main_v31)) (V (Proc.devRef .tc main_v27)) (V (Proc.devRef .tc main_v28)) (V (Proc.devRef .tc main_v30)) := by
  after_results_simp <;> rfl
theorem s4_v34 : after ops4 V (Proc.devRef .tc main_v34) = V (Proc.devRef .tc main_v34) := by after_results <;> rfl

/-! ### The result -/
theorem s5_v73 : after ops5 V (Proc.devRef .tc main_v73) = resultArr (V (Proc.devRef .tc main_v34)) (V (Proc.devRef .tc main_v62)) := by after_results <;> rfl

/-- The result buffer after the whole line: the reference's result of the two argument buffers. -/
theorem result_after : after ops V (Proc.devRef .tc main_v73) = refOut (V (Proc.devRef .tc main_arg0)) (V (Proc.devRef .tc main_arg1)) := by
  rw [ops_split, after_append, after_append, after_append, after_append, s5_v73, s4_v62, s4_v34, s3_v34, s3_v38, s3_v27, s3_v28,
    s3_v30, s3_v31, s2_v25, s2_v26, s2_v27, s2_v28, s2_v30, s2_v31, s1_v1, s1_v3, s1_v5, s1_v7, s1_v13, s1_v15, s1_arg1]
  rfl

/-- No operation writes an argument. -/
theorem arg0_after : after ops V (Proc.devRef .tc main_arg0) = V (Proc.devRef .tc main_arg0) :=
  after_of_forall_not_mem (b := (Proc.devRef .tc main_arg0)) _ _ (List.forall_iff_forall_mem.mp (by
    simp only [ops, List.Forall, nullary_writes, unary_writes, binary_writes, reshape_writes, Finset.mem_singleton]
    repeat' apply And.intro
    all_goals exact devRef_ne_of_ne (by decide)))
theorem arg1_after : after ops V (Proc.devRef .tc main_arg1) = V (Proc.devRef .tc main_arg1) :=
  after_of_forall_not_mem (b := (Proc.devRef .tc main_arg1)) _ _ (List.forall_iff_forall_mem.mp (by
    simp only [ops, List.Forall, nullary_writes, unary_writes, binary_writes, reshape_writes, Finset.mem_singleton]
    repeat' apply And.intro
    all_goals exact devRef_ne_of_ne (by decide)))

end Stretches

/-! ## The run -/

/-- On every device, from any memory with zero counters: every weakly fair execution of @main terminates with the result
    buffer at the velocity field of the two arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v73)
          = field (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v73).trans ((result_after _).trans (refOut_eq _ _)),
      (h c main_arg0).trans (arg0_after _),
      (h c main_arg1).trans (arg1_after _)⟩)
    (run_seq scopedRefs_eq scopedSems_eq defs main (fun _ => ops) main_eq (fun _ => ops_sub) m ρ)

end Cert.ReferenceIdeal.RefRun

end
-- ==== Proof.lean ====
/-
  The velocity field of 32 point vortices on a 1024 × 1024 grid of points: a tiled kernel against a whole-array program.

  Both programs compute, for every vortex `n` and grid point `(H, W)`, the two components of the velocity the vortex
  induces there — `τ · falloff` times the rotated offset `(d₁, −d₀)`, the falloff a Gaussian in the signed distance to the
  vortex's offset circle, of one width outside the circle and another inside, over the distance to the centre
  (Proof/VortexField.lean, Proof/VelocityField.lean). The kernel moves the points' channel axis to position 1, computes
  the field tile by tile on an `8 × 8` grid with all 32 vortices at once, and moves the channel axis back
  (Proof/KernelBlock.lean: a stored block entry by entry; Proof/KernelArray.lean: the blocks are blocks of one array function,
  they cover the output, and the two transposes cancel). The reference broadcasts everything to `[32, 1024, 1024, 1, ·]`
  and sums over unit axes (Proof/RefStages.lean: its arithmetic as five stages, each read entry by entry; Proof/RefRun.lean: its
  run, the 78 host operations read in five stretches). On the extended reals the two results are one function of the arguments,
  with no condition on them: the programs differ only in how they spell a negation, the sign carried by the second
  component, the indicator of the circle's outside, and sums started from zero.
  The frames of the two kernel programs are the generated ones; the reference's frame is its run with the result
  dropped; the idealization rewrote nothing, so there is nothing to preserve.
-/
import proofs.«172216_j14688788152368_2_alg».proof.Defs
import proofs.«172216_j14688788152368_2_alg».proof.Proof.Gen.Kernel
import proofs.«172216_j14688788152368_2_alg».proof.Proof.Gen.Kernel.Frame
import proofs.«172216_j14688788152368_2_alg».proof.Proof.Gen.KernelIdeal
import proofs.«172216_j14688788152368_2_alg».proof.Proof.Gen.KernelIdeal.Frame
import proofs.«172216_j14688788152368_2_alg».proof.Proof.Gen.ReferenceIdeal
import proofs.«172216_j14688788152368_2_alg».proof.Proof.Gen.Pre_finite_inputs
import proofs.«172216_j14688788152368_2_alg».proof.Proof.KernelArray
import proofs.«172216_j14688788152368_2_alg».proof.Proof.RefRun
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- Run from memories that agree on the arguments, both programs end with the velocity field of those arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
